-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x256x256 : Shape := ⟨4, ![4, 3, 256, 256]⟩
abbrev S4x256x64x64 : Shape := ⟨4, ![4, 256, 64, 64]⟩
abbrev S_ : Shape := ⟨0, ![]⟩

class Facts : Prop where
  bcast_S_S4x3x256x256 : S_.BroadcastsInDim S4x3x256x256 (![] : Fin 0 → Fin S4x3x256x256.rank)
  reducesTo_S4x3x256x256_S_d0_1_2_3 : S4x3x256x256.ReducesTo [0, 1, 2, 3] S_
  h_S_ : 0 < S_.numel
  bcast_S_S4x256x64x64 : S_.BroadcastsInDim S4x256x64x64 (![] : Fin 0 → Fin S4x256x64x64.rank)
  reducesTo_S4x256x64x64_S_d0_1_2_3 : S4x256x64x64.ReducesTo [0, 1, 2, 3] S_

variable [Facts]

def fn_part1 {F : FTy → Type} [FloatOps F] (main_v13 : IVec S_ 1) (main_v16 : IVec S4x256x64x64 1) : IVec S_ 1 :=
  let main_c_5 : IVec S_ 1 := constantI S_ 1 1#1
  let main_v17 : IVec S_ 1 := (fun x v => Host.reduce IntOp.andi x v reducesTo_S4x256x64x64_S_d0_1_2_3 h_S_) main_v16 main_c_5
  let main_v18 : IVec S_ 1 := andi main_v13 main_v17
  main_v18

def fn {F : FTy → Type} [FloatOps F] (main_arg0 : FVec F S4x3x256x256 .f32) (main_arg1 : FVec F S4x3x256x256 .f32) (main_arg2 : FVec F S4x256x64x64 .f32) (main_arg3 : FVec F S4x256x64x64 .f32) : IVec S_ 1 :=
  let main_v0 : FVec F S4x3x256x256 .f32 := Host.absf main_arg0
  let main_cst : FVec F S_ .f32 := constant S_ .f32 0x7F800000#32
  let main_v1 : FVec F S4x3x256x256 .f32 := broadcastInDim S4x3x256x256 ![] bcast_S_S4x3x256x256 main_cst
  let main_v2 : IVec S4x3x256x256 1 := cmpf .olt main_v0 main_v1
  let main_c : IVec S_ 1 := constantI S_ 1 1#1
  let main_v3 : IVec S_ 1 := (fun x v => Host.reduce IntOp.andi x v reducesTo_S4x3x256x256_S_d0_1_2_3 h_S_) main_v2 main_c
  let main_v4 : FVec F S4x3x256x256 .f32 := Host.absf main_arg1
  let main_cst_0 : FVec F S_ .f32 := constant S_ .f32 0x7F800000#32
  let main_v5 : FVec F S4x3x256x256 .f32 := broadcastInDim S4x3x256x256 ![] bcast_S_S4x3x256x256 main_cst_0
  let main_v6 : IVec S4x3x256x256 1 := cmpf .olt main_v4 main_v5
  let main_c_1 : IVec S_ 1 := constantI S_ 1 1#1
  let main_v7 : IVec S_ 1 := (fun x v => Host.reduce IntOp.andi x v reducesTo_S4x3x256x256_S_d0_1_2_3 h_S_) main_v6 main_c_1
  let main_v8 : IVec S_ 1 := andi main_v3 main_v7
  let main_v9 : FVec F S4x256x64x64 .f32 := Host.absf main_arg2
  let main_cst_2 : FVec F S_ .f32 := constant S_ .f32 0x7F800000#32
  let main_v10 : FVec F S4x256x64x64 .f32 := broadcastInDim S4x256x64x64 ![] bcast_S_S4x256x64x64 main_cst_2
  let main_v11 : IVec S4x256x64x64 1 := cmpf .olt main_v9 main_v10
  let main_c_3 : IVec S_ 1 := constantI S_ 1 1#1
  let main_v12 : IVec S_ 1 := (fun x v => Host.reduce IntOp.andi x v reducesTo_S4x256x64x64_S_d0_1_2_3 h_S_) main_v11 main_c_3
  let main_v13 : IVec S_ 1 := andi main_v8 main_v12
  let main_v14 : FVec F S4x256x64x64 .f32 := Host.absf main_arg3
  let main_cst_4 : FVec F S_ .f32 := constant S_ .f32 0x7F800000#32
  let main_v15 : FVec F S4x256x64x64 .f32 := broadcastInDim S4x256x64x64 ![] bcast_S_S4x256x64x64 main_cst_4
  let main_v16 : IVec S4x256x64x64 1 := cmpf .olt main_v14 main_v15
  fn_part1 (F := F) main_v13 main_v16
-- ==== Kernel.lean ====
abbrev S4x3x256x256 : Shape := ⟨4, ![4, 3, 256, 256]⟩
abbrev S4x256x64x64 : Shape := ⟨4, ![4, 256, 64, 64]⟩
abbrev S4x256x4096 : Shape := ⟨3, ![4, 256, 4096]⟩
abbrev S4x4096x256 : Shape := ⟨3, ![4, 4096, 256]⟩
abbrev S_ : Shape := ⟨0, ![]⟩
abbrev S4x256 : Shape := ⟨2, ![4, 256]⟩
abbrev S4x1x256 : Shape := ⟨3, ![4, 1, 256]⟩
abbrev S4x4096 : Shape := ⟨2, ![4, 4096]⟩
abbrev S4x512x256 : Shape := ⟨3, ![4, 512, 256]⟩
abbrev S4x512 : Shape := ⟨2, ![4, 512]⟩
abbrev S4x512x512 : Shape := ⟨3, ![4, 512, 512]⟩
abbrev S4x512x1 : Shape := ⟨3, ![4, 512, 1]⟩
abbrev S4x1x512 : Shape := ⟨3, ![4, 1, 512]⟩

abbrev nBuf : Space → Nat
  | .hbm => 62
  | .vmem => 36
  | .smem => 0
  | _ => 0

abbrev bufTy : (tb : Table) → Fin (tcTables nBuf tb) → BufTy
  | .hbm, ⟨0, _⟩ => ⟨S4x3x256x256, .f32⟩
  | .hbm, ⟨1, _⟩ => ⟨S4x3x256x256, .f32⟩
  | .hbm, ⟨2, _⟩ => ⟨S4x256x64x64, .f32⟩
  | .hbm, ⟨3, _⟩ => ⟨S4x256x64x64, .f32⟩
  | .hbm, ⟨4, _⟩ => ⟨S4x256x4096, .f32⟩
  | .hbm, ⟨5, _⟩ => ⟨S4x4096x256, .f32⟩
  | .hbm, ⟨6, _⟩ => ⟨S_, .f32⟩
  | .hbm, ⟨7, _⟩ => ⟨S4x256, .f32⟩
  | .hbm, ⟨8, _⟩ => ⟨S4x1x256, .f32⟩
  | .hbm, ⟨9, _⟩ => ⟨S_, .f32⟩
  | .hbm, ⟨10, _⟩ => ⟨S4x1x256, .f32⟩
  | .hbm, ⟨11, _⟩ => ⟨S4x1x256, .f32⟩
  | .hbm, ⟨12, _⟩ => ⟨S4x4096x256, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x256x4096, .f32⟩
  | .hbm, ⟨19, _⟩ => ⟨S4x4096x256, .f32⟩
  | .hbm, ⟨20, _⟩ => ⟨S_, .f32⟩
  | .hbm, ⟨21, _⟩ => ⟨S4x256, .f32⟩
  | .hbm, ⟨22, _⟩ => ⟨S4x1x256, .f32⟩
  | .hbm, ⟨23, _⟩ => ⟨S_, .f32⟩
  | .hbm, ⟨24, _⟩ => ⟨S4x1x256, .f32⟩
  | .hbm, ⟨25, _⟩ => ⟨S4x1x256, .f32⟩
  | .hbm, ⟨26, _⟩ => ⟨S4x4096x256, .f32⟩
  | .hbm, ⟨27, _⟩ => ⟨S4x4096x256, .f32⟩
  | .hbm, ⟨28, _⟩ => ⟨S4x4096x256, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S4x4096x256, .bf16⟩
  | .hbm, ⟨33, _⟩ => ⟨S4x4096x256, .bf16⟩
  | .hbm, ⟨34, _⟩ => ⟨S4x4096, .f32⟩
  | .hbm, ⟨35, _⟩ => ⟨S4x4096, .f32⟩
  | .hbm, ⟨36, _⟩ => ⟨S4x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x3x256x256, .f32⟩
  | .hbm, ⟨42, _⟩ => ⟨S4x3x256x256, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4x256x64x64, .f32⟩
  | .hbm, ⟨48, _⟩ => ⟨S4x256x64x64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S4x512x256, .bf16⟩
  | .local _ .vmem, ⟨1, _⟩ => ⟨S4x512x256, .bf16⟩
  | .local _ .vmem, ⟨2, _⟩ => ⟨S4x512x256, .bf16⟩
  | .local _ .vmem, ⟨3, _⟩ => ⟨S4x512x256, .bf16⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | .local _ .vmem, ⟨8, _⟩ => ⟨S4x512, .f32⟩
  | .local _ .vmem, ⟨9, _⟩ => ⟨S4x512, .f32⟩
  | .local _ .vmem, ⟨10, _⟩ => ⟨S4x512x256, .bf16⟩
  | .local _ .vmem, ⟨11, _⟩ => ⟨S4x512x256, .bf16⟩
  | .local _ .vmem, ⟨12, _⟩ => ⟨S4x512x256, .bf16⟩
  | .local _ .vmem, ⟨13, _⟩ => ⟨S4x512x256, .bf16⟩
  | .local _ .vmem, ⟨14, _⟩ => ⟨S4x512, .f32⟩
  | .local _ .vmem, ⟨15, _⟩ => ⟨S4x512, .f32⟩
  | .local _ .vmem, ⟨16, _⟩ => ⟨S4x512, .f32⟩
  | .local _ .vmem, ⟨17, _⟩ => ⟨S4x512, .f32⟩
  | .local _ .vmem, ⟨18, _⟩ => ⟨S4x512, .f32⟩
  | .local _ .vmem, ⟨19, _⟩ => ⟨S4x512, .f32⟩
  | .local _ .vmem, ⟨20, _⟩ => ⟨S4x512, .f32⟩
  | .local _ .vmem, ⟨21, _⟩ => ⟨S4x512, .f32⟩
  | .local _ .vmem, ⟨22, _⟩ => ⟨S4x512x256, .bf16⟩
  | .local _ .vmem, ⟨23, _⟩ => ⟨S4x512x256, .bf16⟩
  | .local _ .vmem, ⟨24, _⟩ => ⟨S4x512x256, .bf16⟩
  | .local _ .vmem, ⟨25, _⟩ => ⟨S4x512x256, .bf16⟩
  | .local _ .vmem, ⟨26, _⟩ => ⟨S4x512, .f32⟩
  | .local _ .vmem, ⟨27, _⟩ => ⟨S4x512, .f32⟩
  | .local _ .vmem, ⟨28, _⟩ => ⟨S4x512, .f32⟩
  | .local _ .vmem, ⟨29, _⟩ => ⟨S4x512, .f32⟩
  | .local _ .vmem, ⟨30, _⟩ => ⟨S4x512, .f32⟩
  | .local _ .vmem, ⟨31, _⟩ => ⟨S4x512, .f32⟩
  | .local _ .vmem, ⟨32, _⟩ => ⟨S4x512, .f32⟩
  | .local _ .vmem, ⟨33, _⟩ => ⟨S4x512, .f32⟩
  | .local _ .vmem, ⟨34, _⟩ => ⟨S4x512, .f32⟩
  | .local _ .vmem, ⟨35, _⟩ => ⟨S4x512, .f32⟩
  | _, _ => ⟨S4x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_cst_13 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S4x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S4x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S4x512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4x512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S4x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S4x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S4x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S4x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S4x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S4x256x64x64_S4x256x4096 : S4x256x64x64.ShapeCasts S4x256x4096
  transposes_S4x256x4096_S4x4096x256_0_2_1 : S4x256x4096.Transposes [0, 2, 1] S4x4096x256
  reducesTo_S4x4096x256_S4x256_d1 : S4x4096x256.ReducesTo [1] S4x256
  h_S_ : 0 < S_.numel
  bcast_S4x256_S4x1x256_0_2 : S4x256.BroadcastsInDim S4x1x256 (![0, 2] : Fin 2 → Fin S4x1x256.rank)
  bcast_S_S4x1x256 : S_.BroadcastsInDim S4x1x256 (![] : Fin 0 → Fin S4x1x256.rank)
  bcast_S4x1x256_S4x4096x256_0_1_2 : S4x1x256.BroadcastsInDim S4x4096x256 (![0, 1, 2] : Fin 3 → Fin S4x4096x256.rank)
  reducesTo_S4x4096x256_S4x4096_d2 : S4x4096x256.ReducesTo [2] S4x4096
  bitsLt_bf16_f32 : FTy.bits .bf16 < FTy.bits .f32
  inb_S4x512_S4x512_0_0 : ∀ a, (![0, 0] : Fin 2 → Nat) a + S4x512.size a ≤ S4x512.size a
  h_S4x512 : 0 < S4x512.numel
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  shapeCasts_S4x512_S4x512 : S4x512.ShapeCasts S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reduces_S4x512x512_S4x512_2 : S4x512x512.Reduces [1] S4x512
  reducesTo_S4x4096_S_d0_1 : S4x4096.ReducesTo [0, 1] S_
  reducesTo_S4x3x256x256_S_d0_1_2_3 : S4x3x256x256.ReducesTo [0, 1, 2, 3] S_
  reducesTo_S4x256x64x64_S_d0_1_2_3 : S4x256x64x64.ReducesTo [0, 1, 2, 3] S_
  dot_S4x512x256_S4x512x256_S4x512x512_2_2_1_1_0_0_wf : DotDims.WF S4x512x256 S4x512x256 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x256.size a ≤ S4x4096x256.size a
  hwx0_0 : ∀ i : grid0.Coords, EltTy.bits .bf16 = 32 ∨ (Rect.block (s := S4x4096x256) S4x512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x256.size a ≤ S4x4096x256.size a
  hwx0_1 : ∀ i : grid0.Coords, EltTy.bits .bf16 = 32 ∨ (Rect.block (s := S4x4096x256) S4x512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x4096.size a
  hwx0_2 : ∀ i : grid0.Coords, EltTy.bits .f32 = 32 ∨ (Rect.block (s := S4x4096) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x4096.size a
  hwx0_3 : ∀ i : grid0.Coords, EltTy.bits .f32 = 32 ∨ (Rect.block (s := S4x4096) S4x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512.size a ≤ S4x4096.size a
  hwx0_4 : ∀ i : grid0.Coords, EltTy.bits .f32 = 32 ∨ (Rect.block (s := S4x4096) S4x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x256.size a ≤ S4x4096x256.size a
  hwx1_0 : ∀ i : grid1.Coords, EltTy.bits .bf16 = 32 ∨ (Rect.block (s := S4x4096x256) S4x512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x256.size a ≤ S4x4096x256.size a
  hwx1_1 : ∀ i : grid1.Coords, EltTy.bits .bf16 = 32 ∨ (Rect.block (s := S4x4096x256) S4x512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x4096.size a
  hwx1_2 : ∀ i : grid1.Coords, EltTy.bits .f32 = 32 ∨ (Rect.block (s := S4x4096) S4x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512.size a ≤ S4x4096.size a
  hwx1_3 : ∀ i : grid1.Coords, EltTy.bits .f32 = 32 ∨ (Rect.block (s := S4x4096) S4x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x512.size a ≤ S4x4096.size a
  hwx1_4 : ∀ i : grid1.Coords, EltTy.bits .f32 = 32 ∨ (Rect.block (s := S4x4096) S4x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x512.size a ≤ S4x4096.size a
  hwx1_5 : ∀ i : grid1.Coords, EltTy.bits .f32 = 32 ∨ (Rect.block (s := S4x4096) S4x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x512x256.size a ≤ S4x4096x256.size a
  hwx2_0 : ∀ i : grid2.Coords, EltTy.bits .bf16 = 32 ∨ (Rect.block (s := S4x4096x256) S4x512x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x512x256.size a ≤ S4x4096x256.size a
  hwx2_1 : ∀ i : grid2.Coords, EltTy.bits .bf16 = 32 ∨ (Rect.block (s := S4x4096x256) S4x512x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x512.size a ≤ S4x4096.size a
  hwx2_2 : ∀ i : grid2.Coords, EltTy.bits .f32 = 32 ∨ (Rect.block (s := S4x4096) S4x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4x512.size a ≤ S4x4096.size a
  hwx2_3 : ∀ i : grid2.Coords, EltTy.bits .f32 = 32 ∨ (Rect.block (s := S4x4096) S4x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4x512.size a ≤ S4x4096.size a
  hwx2_4 : ∀ i : grid2.Coords, EltTy.bits .f32 = 32 ∨ (Rect.block (s := S4x4096) S4x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4x512.size a ≤ S4x4096.size a
  hwx2_5 : ∀ i : grid2.Coords, EltTy.bits .f32 = 32 ∨ (Rect.block (s := S4x4096) S4x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4x512.size a ≤ S4x4096.size a
  hwx2_6 : ∀ i : grid2.Coords, EltTy.bits .f32 = 32 ∨ (Rect.block (s := S4x4096) S4x512.size (cc2_transform_6 i) (hinb2_6 i)).WholeWords (EltTy.packing .f32)

variable [Facts₀]

def dot_S4x512x256_S4x512x256_S4x512x512_2_2_1_1_0_0 : DotDims S4x512x256 S4x512x256 S4x512x512 where
  lhsContracting := [2]
  rhsContracting := [2]
  lhsNonContracting := [1]
  rhsNonContracting := [1]
  lhsBatch := [0]
  rhsBatch := [0]
  wf := dot_S4x512x256_S4x512x256_S4x512x512_2_2_1_1_0_0_wf

abbrev win0_0 : Pipeline.Window sig grid0 :=
  Pipeline.Window.ofSpec (Memref.whole main_v22) S4x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S4x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S4x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S4x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S4x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25) S4x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22) S4x512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S4x512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S4x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S4x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v24) S4x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v25) S4x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v26) S4x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4x3x256x256 : Shape := ⟨4, ![4, 3, 256, 256]⟩
abbrev S4x256x64x64 : Shape := ⟨4, ![4, 256, 64, 64]⟩
abbrev S_ : Shape := ⟨0, ![]⟩
abbrev S4x256x4096 : Shape := ⟨3, ![4, 256, 4096]⟩
abbrev S4x4096x256 : Shape := ⟨3, ![4, 4096, 256]⟩
abbrev S4x256 : Shape := ⟨2, ![4, 256]⟩
abbrev S4x1x256 : Shape := ⟨3, ![4, 1, 256]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩

abbrev nBuf : Space → Nat
  | .hbm => 97
  | .vmem => 0
  | .smem => 0
  | _ => 0

abbrev bufTy : (tb : Table) → Fin (tcTables nBuf tb) → BufTy
  | .hbm, ⟨0, _⟩ => ⟨S4x3x256x256, .f32⟩
  | .hbm, ⟨1, _⟩ => ⟨S4x3x256x256, .f32⟩
  | .hbm, ⟨2, _⟩ => ⟨S4x256x64x64, .f32⟩
  | .hbm, ⟨3, _⟩ => ⟨S4x256x64x64, .f32⟩
  | .hbm, ⟨4, _⟩ => ⟨S4x3x256x256, .f32⟩
  | .hbm, ⟨5, _⟩ => ⟨S4x3x256x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x256x4096, .f32⟩
  | .hbm, ⟨13, _⟩ => ⟨S4x4096x256, .f32⟩
  | .hbm, ⟨14, _⟩ => ⟨S4x256x4096, .f32⟩
  | .hbm, ⟨15, _⟩ => ⟨S4x4096x256, .f32⟩
  | .hbm, ⟨16, _⟩ => ⟨S_, .f32⟩
  | .hbm, ⟨17, _⟩ => ⟨S4x256, .f32⟩
  | .hbm, ⟨18, _⟩ => ⟨S4x1x256, .f32⟩
  | .hbm, ⟨19, _⟩ => ⟨S_, .f32⟩
  | .hbm, ⟨20, _⟩ => ⟨S4x1x256, .f32⟩
  | .hbm, ⟨21, _⟩ => ⟨S4x1x256, .f32⟩
  | .hbm, ⟨22, _⟩ => ⟨S4x4096x256, .f32⟩
  | .hbm, ⟨23, _⟩ => ⟨S4x4096x256, .f32⟩
  | .hbm, ⟨24, _⟩ => ⟨S_, .f32⟩
  | .hbm, ⟨25, _⟩ => ⟨S4x256, .f32⟩
  | .hbm, ⟨26, _⟩ => ⟨S4x1x256, .f32⟩
  | .hbm, ⟨27, _⟩ => ⟨S_, .f32⟩
  | .hbm, ⟨28, _⟩ => ⟨S4x1x256, .f32⟩
  | .hbm, ⟨29, _⟩ => ⟨S4x1x256, .f32⟩
  | .hbm, ⟨30, _⟩ => ⟨S4x4096x256, .f32⟩
  | .hbm, ⟨31, _⟩ => ⟨S4x4096x256, .f32⟩
  | .hbm, ⟨32, _⟩ => ⟨S4x4096x256, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x4096x256, .f32⟩
  | .hbm, ⟨37, _⟩ => ⟨S_, .f32⟩
  | .hbm, ⟨38, _⟩ => ⟨S4x4096, .f32⟩
  | .hbm, ⟨39, _⟩ => ⟨S4x4096, .f32⟩
  | .hbm, ⟨40, _⟩ => ⟨S4x4096x4096, .f32⟩
  | .hbm, ⟨41, _⟩ => ⟨S4x4096x1, .f32⟩
  | .hbm, ⟨42, _⟩ => ⟨S4x1x4096, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x4096, .f32⟩
  | .hbm, ⟨60, _⟩ => ⟨S4x4096x4096, .f32⟩
  | .hbm, ⟨61, _⟩ => ⟨S_, .f32⟩
  | .hbm, ⟨62, _⟩ => ⟨S4x4096x4096, .f32⟩
  | .hbm, ⟨63, _⟩ => ⟨S4x4096x4096, .f32⟩
  | .hbm, ⟨64, _⟩ => ⟨S_, .f32⟩
  | .hbm, ⟨65, _⟩ => ⟨S4x4096x4096, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S4x4096x4096, .f32⟩
  | .hbm, ⟨72, _⟩ => ⟨S4x4096x4096, .f32⟩
  | .hbm, ⟨73, _⟩ => ⟨S_, .f32⟩
  | .hbm, ⟨74, _⟩ => ⟨S4x4096, .f32⟩
  | .hbm, ⟨75, _⟩ => ⟨S_, .f32⟩
  | .hbm, ⟨76, _⟩ => ⟨S4, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S4x256x64x64, .f32⟩
  | .hbm, ⟨89, _⟩ => ⟨S4x256x64x64, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S4x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_v21 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_cst_14 : Ref sig .tc := ⟨.hbm, 75, rfl⟩
abbrev main_v50 : Ref sig .tc := ⟨.hbm, 76, rfl⟩
abbrev main_cst_15 : Ref sig .tc := ⟨.hbm, 77, rfl⟩
abbrev main_v51 : Ref sig .tc := ⟨.hbm, 78, rfl⟩
abbrev main_v52 : Ref sig .tc := ⟨.hbm, 79, rfl⟩
abbrev main_cst_16 : Ref sig .tc := ⟨.hbm, 80, rfl⟩
abbrev main_v53 : Ref sig .tc := ⟨.hbm, 81, rfl⟩
abbrev main_cst_17 : Ref sig .tc := ⟨.hbm, 82, rfl⟩
abbrev main_v54 : Ref sig .tc := ⟨.hbm, 83, rfl⟩
abbrev main_v55 : Ref sig .tc := ⟨.hbm, 84, rfl⟩
abbrev main_cst_18 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_19 : Ref sig .tc := ⟨.hbm, 90, rfl⟩
abbrev main_v60 : Ref sig .tc := ⟨.hbm, 91, rfl⟩
abbrev main_cst_20 : Ref sig .tc := ⟨.hbm, 92, rfl⟩
abbrev main_v61 : Ref sig .tc := ⟨.hbm, 93, rfl⟩
abbrev main_cst_21 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]

class Facts₀ : Prop where
  reducesTo_S4x3x256x256_S_d0_1_2_3 : S4x3x256x256.ReducesTo [0, 1, 2, 3] S_
  h_S_ : 0 < S_.numel
  shapeCasts_S4x256x64x64_S4x256x4096 : S4x256x64x64.ShapeCasts S4x256x4096
  transposes_S4x256x4096_S4x4096x256_0_2_1 : S4x256x4096.Transposes [0, 2, 1] S4x4096x256
  reducesTo_S4x4096x256_S4x256_d1 : S4x4096x256.ReducesTo [1] S4x256
  bcast_S4x256_S4x1x256_0_2 : S4x256.BroadcastsInDim S4x1x256 (![0, 2] : Fin 2 → Fin S4x1x256.rank)
  bcast_S_S4x1x256 : S_.BroadcastsInDim S4x1x256 (![] : Fin 0 → Fin S4x1x256.rank)
  bcast_S4x1x256_S4x4096x256_0_1_2 : S4x1x256.BroadcastsInDim S4x4096x256 (![0, 1, 2] : Fin 3 → Fin S4x4096x256.rank)
  reducesTo_S4x4096x256_S4x4096_d2 : S4x4096x256.ReducesTo [2] S4x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096x1 : S_.BroadcastsInDim S4x4096x1 (![] : Fin 0 → Fin S4x4096x1.rank)
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  reducesTo_S4x256x64x64_S_d0_1_2_3 : S4x256x64x64.ReducesTo [0, 1, 2, 3] S_
  dot_S4x4096x256_S4x4096x256_S4x4096x4096_2_2_1_1_0_0_wf : DotDims.WF S4x4096x256 S4x4096x256 S4x4096x4096 [2] [2] [1] [1] [0] [0]

variable [Facts₀]

def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf

class Facts : Prop extends Facts₀ where

variable [Facts]
-- ==== Proof.KernelRun.lean ====
/-
  The idealized kernel's run, keeping its RESULT: every weakly fair execution of @main terminates, nothing faulting,
  with the scalar result buffer holding what the last stretch of host operations computes from the contents the
  third sweep leaves (`Gen.W5`: the fold of the buffer contents through @main's five segments), and the four argument
  arrays as launched. The segments, their thread states and their chaining are the generated frame's; only the
  final reading differs: the result buffer is unscoped, so the last thread state holds it at `W5`'s contents too.
-/
import proofs.«157142_j19567871001233_1_alg».proof.Proof.Gen.KernelIdeal.Frame

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the result buffer at the last boundary's contents, the arguments as launched. -/
theorem run : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v42 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.RunValue

end
-- ==== Proof.Spec.lean ====
/-
  The contextual-similarity quantities, as functions of four abstract arrays over the extended reals:
  centred features `X`, `Y` : [4, 4096, 256] and their row norms `xn`, `yn` : [4, 4096].

    dist b x y  = 1 - (∑ₖ X[b,x,k]·Y[b,y,k]) / (xn[b,x]·yn[b,y] + ε₁)        the cosine distance
    dmin b x    = ⨅ y, dist b x y                                               its minimum over the targets
    wgt  b x y  = exp ((1 - dist b x y / (dm[b,x] + ε₂)) / 1)                   the weight, for a given array `dm` of minima
    wsum b x    = ∑ y, wgt b x y                                                its sum over the targets
    cmax b y    = ⨆ x, wgt b x y / ws[b,x]                                      the best normalised weight per target

  `wgt`, `wsum` and `cmax` take the arrays of minima and of sums as arguments, so that a sweep that READS those
  arrays (from wherever an earlier sweep left them) is stated before one knows what they hold.
  Quotients are `Ideal.div` and the exponential `Ideal.exp`: the operations both programs apply at the ideal values.
  The three float words are kept as words (the same word on both sides is never evaluated).
-/
import Idealize.ShloMosaic.PureOps.Ideal
import Idealize.ShloMosaic.Lib.ValueIdx

noncomputable section

namespace CtxSim

open Idealize.ShloMosaic Idealize.ShloMosaic.ValueIdx

/-- A [4, 4096, 256] array of extended reals. -/
abbrev Feat := (⟨3, ![4, 4096, 256]⟩ : Shape).Idx → EReal
/-- A [4, 4096] array of extended reals. -/
abbrev Row := (⟨2, ![4, 4096]⟩ : Shape).Idx → EReal

/-- ε₁ (the f32 nearest 1e-8), ε₂ (the f32 nearest 1e-5), and 1. -/
def eps1 : EReal := Ideal.ofBits .f32 0x322BCC77#32
def eps2 : EReal := Ideal.ofBits .f32 0x3727C5AC#32
def one : EReal := Ideal.ofBits .f32 0x3F800000#32

/-- The inner product of row `x` of `X` with row `y` of `Y`, in batch `b`. -/
def inner (X Y : Feat) (b : Fin 4) (x y : Fin 4096) : EReal :=
  ∑ k : Fin 256, X (ix3 b x k) * Y (ix3 b y k)

/-- The cosine distance. -/
def dist (X Y : Feat) (xn yn : Row) (b : Fin 4) (x y : Fin 4096) : EReal :=
  one - Ideal.div (inner X Y b x y) (xn (ix2 b x) * yn (ix2 b y) + eps1)

/-- Its minimum over the targets `y`. -/
def dmin (X Y : Feat) (xn yn : Row) (b : Fin 4) (x : Fin 4096) : EReal :=
  ⨅ y : Fin 4096, dist X Y xn yn b x y

/-- The weight of the pair `(x, y)`, the distance normalised by the minimum `dm[b,x]`. -/
def wgt (X Y : Feat) (xn yn dm : Row) (b : Fin 4) (x y : Fin 4096) : EReal :=
  Ideal.exp (Ideal.div (one - Ideal.div (dist X Y xn yn b x y) (dm (ix2 b x) + eps2)) one)

/-- The sum of the weights over the targets `y`. -/
def wsum (X Y : Feat) (xn yn dm : Row) (b : Fin 4) (x : Fin 4096) : EReal :=
  ∑ y : Fin 4096, wgt X Y xn yn dm b x y

/-- The largest normalised weight a target `y` receives. -/
def cmax (X Y : Feat) (xn yn dm ws : Row) (b : Fin 4) (y : Fin 4096) : EReal :=
  ⨆ x : Fin 4096, Ideal.div (wgt X Y xn yn dm b x y) (ws (ix2 b x))

/-- The arrays the three sweeps leave, from the features and norms alone. -/
def dminArr (X Y : Feat) (xn yn : Row) : Row := fun i => dmin X Y xn yn (i 0) (i 1)
def wsumArr (X Y : Feat) (xn yn : Row) : Row := fun i => wsum X Y xn yn (dminArr X Y xn yn) (i 0) (i 1)
def cmaxArr (X Y : Feat) (xn yn : Row) : Row :=
  fun i => cmax X Y xn yn (dminArr X Y xn yn) (wsumArr X Y xn yn) (i 0) (i 1)

theorem dminArr_ix (X Y : Feat) (xn yn : Row) (b : Fin 4) (x : Fin 4096) :
    dminArr X Y xn yn (ix2 b x) = dmin X Y xn yn b x := rfl
theorem wsumArr_ix (X Y : Feat) (xn yn : Row) (b : Fin 4) (x : Fin 4096) :
    wsumArr X Y xn yn (ix2 b x) = wsum X Y xn yn (dminArr X Y xn yn) b x := rfl
theorem cmaxArr_ix (X Y : Feat) (xn yn : Row) (b : Fin 4) (y : Fin 4096) :
    cmaxArr X Y xn yn (ix2 b y) = cmax X Y xn yn (dminArr X Y xn yn) (wsumArr X Y xn yn) b y := rfl

/-- Column `512·j + q` of 4096, for a tile `j` of eight and a position `q` inside it. -/
def tile (j : Fin 8) (q : Fin 512) : Fin 4096 := ⟨512 * j.val + q.val, by have := j.isLt; have := q.isLt; omega⟩

theorem tile_val (j : Fin 8) (q : Fin 512) : (tile j q).val = 512 * j.val + q.val := rfl

/-- Every column is in exactly one tile. -/
theorem eq_tile (y : Fin 4096) : y = tile ⟨y.val / 512, by have := y.isLt; omega⟩ ⟨y.val % 512, Nat.mod_lt _ (by norm_num)⟩ :=
  Fin.ext (by show y.val = 512 * (y.val / 512) + y.val % 512; omega)

/-! ## The loss around the similarity -/

/-- A [4, 3, 256, 256] and a [4, 256, 64, 64] array of extended reals. -/
abbrev Img := (⟨4, ![4, 3, 256, 256]⟩ : Shape).Idx → EReal
abbrev Feat4 := (⟨4, ![4, 256, 64, 64]⟩ : Shape).Idx → EReal

/-- The zero word. -/
def zero : EReal := Ideal.ofBits .f32 0x00000000#32

/-- The mean of the squared differences of two arrays, as both programs compute it: the sum from zero, divided by
    the word `n` of the element count. -/
def mse {S : Shape} (a b : S.Idx → EReal) (n : EReal) : EReal :=
  Ideal.div (zero + ∑ i : S.Idx, (a i - b i) * (a i - b i)) n

/-- The similarity as ONE mean over the 4·4096 entries (the word of 16384). -/
def cs (cm : Row) : EReal := Ideal.div (zero + ∑ i : (⟨2, ![4, 4096]⟩ : Shape).Idx, cm i) (Ideal.ofBits .f32 0x46800000#32)

/-- The similarity as a mean over the batch (the word of 4) of means over the targets (the word of 4096). -/
def csTwoStep (cm : Row) : EReal :=
  Ideal.div (zero + ∑ b : Fin 4, Ideal.div (zero + ∑ y : Fin 4096, cm (ix2 b y)) (Ideal.ofBits .f32 0x45800000#32))
    (Ideal.ofBits .f32 0x40800000#32)

/-- The loss: `1·mse(a0, a1) − 1·log CS + 0.02·mse(a2, a3)`, the element counts 786432 and 4194304 as words. -/
def lossOf (a0 a1 : Img) (a2 a3 : Feat4) (s : EReal) : EReal :=
  (one * mse a0 a1 (Ideal.ofBits .f32 0x49400000#32) - one * Ideal.log s)
    + Ideal.ofBits .f32 0x3CA3D70A#32 * mse a2 a3 (Ideal.ofBits .f32 0x4A800000#32)

end CtxSim

end
-- ==== Proof.Block.lean ====
/-
  One grid point of any of the three sweeps, at the ideal values: the [4, 512, 512] tile of cosine distances that the
  body computes from a [4, 512, 256] block of output features `x0`, a [4, 512, 256] block of target features `x1` and
  the two [4, 512] blocks of norms `x2`, `x3`:

      dvec x0 x1 x2 x3 [b, p, q] = 1 - (∑ₖ x0[b,p,k]·x1[b,q,k]) / (x2[b,p]·x3[b,q] + ε₁).

  The product is the matrix unit's contraction over the last axis of both operands, batched over the first; the norms
  reach the tile as a column [4,512,1] and a row [4,1,512] broadcast across it.
-/
import proofs.«157142_j19567871001233_1_alg».proof.Proof.Spec
import proofs.«157142_j19567871001233_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen
open Idealize.ShloMosaic Idealize.ShloMosaic.TcCoe Idealize.ShloMosaic.ValueIdx

/-- Where the product's operands are read, coordinate by coordinate: the batch coordinate from the output's, the row
    coordinate from the output's row (left operand) or column (right operand), the channel from the contraction index. -/
theorem lhs_0 (i : S4x512x512.Idx) (q : dot_S4x512x256_S4x512x256_S4x512x512_2_2_1_1_0_0.contr.Idx) : (dot_S4x512x256_S4x512x256_S4x512x512_2_2_1_1_0_0.lhsIdx i q 0).val = (i 0).val := by
  unfold DotDims.lhsIdx
  rw [dif_pos (show (0 : Fin S4x512x256.rank) ∈ dot_S4x512x256_S4x512x256_S4x512x512_2_2_1_1_0_0.lhsBatch by decide)]
  rfl
theorem lhs_1 (i : S4x512x512.Idx) (q : dot_S4x512x256_S4x512x256_S4x512x512_2_2_1_1_0_0.contr.Idx) : (dot_S4x512x256_S4x512x256_S4x512x512_2_2_1_1_0_0.lhsIdx i q 1).val = (i 1).val := by
  unfold DotDims.lhsIdx
  rw [dif_neg (show ¬(1 : Fin S4x512x256.rank) ∈ dot_S4x512x256_S4x512x256_S4x512x512_2_2_1_1_0_0.lhsBatch by decide),
    dif_pos (show (1 : Fin S4x512x256.rank) ∈ dot_S4x512x256_S4x512x256_S4x512x512_2_2_1_1_0_0.lhsNonContracting by decide)]
  rfl
theorem lhs_2 (i : S4x512x512.Idx) (q : dot_S4x512x256_S4x512x256_S4x512x512_2_2_1_1_0_0.contr.Idx) : (dot_S4x512x256_S4x512x256_S4x512x512_2_2_1_1_0_0.lhsIdx i q 2).val = (q ⟨0, by decide⟩).val :=
  dot_S4x512x256_S4x512x256_S4x512x512_2_2_1_1_0_0.lhsIdx_val_of_single rfl i q
theorem rhs_0 (i : S4x512x512.Idx) (q : dot_S4x512x256_S4x512x256_S4x512x512_2_2_1_1_0_0.contr.Idx) : (dot_S4x512x256_S4x512x256_S4x512x512_2_2_1_1_0_0.rhsIdx i q 0).val = (i 0).val := by
  unfold DotDims.rhsIdx
  rw [dif_pos (show (0 : Fin S4x512x256.rank) ∈ dot_S4x512x256_S4x512x256_S4x512x512_2_2_1_1_0_0.rhsBatch by decide)]
  rfl
theorem rhs_1 (i : S4x512x512.Idx) (q : dot_S4x512x256_S4x512x256_S4x512x512_2_2_1_1_0_0.contr.Idx) : (dot_S4x512x256_S4x512x256_S4x512x512_2_2_1_1_0_0.rhsIdx i q 1).val = (i 2).val := by
  unfold DotDims.rhsIdx
  rw [dif_neg (show ¬(1 : Fin S4x512x256.rank) ∈ dot_S4x512x256_S4x512x256_S4x512x512_2_2_1_1_0_0.rhsBatch by decide),
    dif_pos (show (1 : Fin S4x512x256.rank) ∈ dot_S4x512x256_S4x512x256_S4x512x512_2_2_1_1_0_0.rhsNonContracting by decide)]
  rfl
theorem rhs_2 (i : S4x512x512.Idx) (q : dot_S4x512x256_S4x512x256_S4x512x512_2_2_1_1_0_0.contr.Idx) : (dot_S4x512x256_S4x512x256_S4x512x512_2_2_1_1_0_0.rhsIdx i q 2).val = (q ⟨0, by decide⟩).val :=
  dot_S4x512x256_S4x512x256_S4x512x512_2_2_1_1_0_0.rhsIdx_val_of_single rfl i q

/-- The batched product of two blocks into the zero tile, at entry (b, p, q): the sum over the 256 channels. -/
theorem mm_apply (x0 x1 : FVec Ideal S4x512x256 .bf16) (b : Fin 4) (p q : Fin 512) :
    (matmul dot_S4x512x256_S4x512x256_S4x512x512_2_2_1_1_0_0 none x0 x1 (constant S4x512x512 .f32 0x00000000#32) : FVec Ideal S4x512x512 .f32) (ix3 b p q)
      = ∑ k : Fin 256, x0 (ix3 b p k) * x1 (ix3 b q k) := by
  simp only [matmul]
  rw [Ideal.matmul_constant_zero_apply, ← Equiv.sum_comp (contrEquiv1 dot_S4x512x256_S4x512x256_S4x512x512_2_2_1_1_0_0 256 rfl rfl).symm]
  refine Finset.sum_congr rfl fun k _ => ?_
  have hk := contrEquiv1_symm_val dot_S4x512x256_S4x512x256_S4x512x512_2_2_1_1_0_0 256 rfl rfl k
  have el : dot_S4x512x256_S4x512x256_S4x512x512_2_2_1_1_0_0.lhsIdx (ix3 b p q) ((contrEquiv1 dot_S4x512x256_S4x512x256_S4x512x512_2_2_1_1_0_0 256 rfl rfl).symm k) = ix3 b p k :=
    funext fun a => Fin.ext (by
      match a with
      | ⟨0, _⟩ => exact lhs_0 _ _
      | ⟨1, _⟩ => exact lhs_1 _ _
      | ⟨2, _⟩ => exact (lhs_2 _ _).trans hk)
  have er : dot_S4x512x256_S4x512x256_S4x512x512_2_2_1_1_0_0.rhsIdx (ix3 b p q) ((contrEquiv1 dot_S4x512x256_S4x512x256_S4x512x512_2_2_1_1_0_0 256 rfl rfl).symm k) = ix3 b q k :=
    funext fun a => Fin.ext (by
      match a with
      | ⟨0, _⟩ => exact rhs_0 _ _
      | ⟨1, _⟩ => exact rhs_1 _ _
      | ⟨2, _⟩ => exact (rhs_2 _ _).trans hk)
  rw [el, er]

/-- A [4,512] block viewed as a column [4,512,1] and broadcast across the tile reads its entry (b, p). -/
theorem col_apply {α : Type} (v : S4x512.Idx → α) (b : Fin 4) (p q : Fin 512) :
    broadcastTo S4x512x512 (shapeCast S4x512x1 v shapeCasts_S4x512_S4x512x1) broadcasts_S4x512x1_S4x512x512 (ix3 b p q)
      = v (ix2 b p) := by
  refine (broadcastTo_apply _ broadcasts_S4x512x1_S4x512x512 (ix3 b p q) (ix3 b p (0 : Fin 1)) fun a => ?_).trans ?_
  · match a with
    | ⟨0, _⟩ => show b.val = if (4 : Nat) = 1 then 0 else b.val; rw [if_neg (by decide)]
    | ⟨1, _⟩ => show p.val = if (512 : Nat) = 1 then 0 else p.val; rw [if_neg (by decide)]
    | ⟨2, _⟩ => show (0 : Nat) = if (1 : Nat) = 1 then 0 else q.val; rw [if_pos rfl]
  · refine shapeCast_apply v shapeCasts_S4x512_S4x512x1 (ix3 b p (0 : Fin 1)) (ix2 b p) ?_
    rw [Shape.rowMajor_val_two, Shape.rowMajor_val_three]
    show b.val * 512 + p.val = (b.val * 512 + p.val) * 1 + 0
    omega

/-- A [4,512] block viewed as a row [4,1,512] and broadcast across the tile reads its entry (b, q). -/
theorem row_apply {α : Type} (v : S4x512.Idx → α) (b : Fin 4) (p q : Fin 512) :
    broadcastTo S4x512x512 (shapeCast S4x1x512 v shapeCasts_S4x512_S4x1x512) broadcasts_S4x1x512_S4x512x512 (ix3 b p q)
      = v (ix2 b q) := by
  refine (broadcastTo_apply _ broadcasts_S4x1x512_S4x512x512 (ix3 b p q) (ix3 b (0 : Fin 1) q) fun a => ?_).trans ?_
  · match a with
    | ⟨0, _⟩ => show b.val = if (4 : Nat) = 1 then 0 else b.val; rw [if_neg (by decide)]
    | ⟨1, _⟩ => show (0 : Nat) = if (1 : Nat) = 1 then 0 else p.val; rw [if_pos rfl]
    | ⟨2, _⟩ => show q.val = if (512 : Nat) = 1 then 0 else q.val; rw [if_neg (by decide)]
  · refine shapeCast_apply v shapeCasts_S4x512_S4x1x512 (ix3 b (0 : Fin 1) q) (ix2 b q) ?_
    rw [Shape.rowMajor_val_two, Shape.rowMajor_val_three]
    show b.val * 512 + q.val = (b.val * 1 + 0) * 512 + q.val
    omega

/-- The tile of distances, as the body's own operations. -/
def dvec (x0 x1 : Vec Ideal S4x512x256 .bf16) (x2 x3 : Vec Ideal S4x512 .f32) : FVec Ideal S4x512x512 .f32 :=
  subf (broadcast S4x512x512 (Scalar.ofBits .f32 0x3F800000#32))
    (divf (matmul dot_S4x512x256_S4x512x256_S4x512x512_2_2_1_1_0_0 none (shapeCast S4x512x256 x0 shapeCasts_S4x512x256_S4x512x256 : FVec Ideal S4x512x256 .bf16)
        (shapeCast S4x512x256 x1 shapeCasts_S4x512x256_S4x512x256 : FVec Ideal S4x512x256 .bf16) (constant S4x512x512 .f32 0x00000000#32))
      (addf (mulf
          (broadcastTo S4x512x512 (shapeCast S4x512x1 (shapeCast S4x512 x2 shapeCasts_S4x512_S4x512 : FVec Ideal S4x512 .f32) shapeCasts_S4x512_S4x512x1 : FVec Ideal S4x512x1 .f32)
            broadcasts_S4x512x1_S4x512x512 : FVec Ideal S4x512x512 .f32)
          (broadcastTo S4x512x512 (shapeCast S4x1x512 (shapeCast S4x512 x3 shapeCasts_S4x512_S4x512 : FVec Ideal S4x512 .f32) shapeCasts_S4x512_S4x1x512 : FVec Ideal S4x1x512 .f32)
            broadcasts_S4x1x512_S4x512x512 : FVec Ideal S4x512x512 .f32))
        (broadcast S4x512x512 (Scalar.ofBits .f32 0x322BCC77#32))))

/-- The distance of row `p` of the output block to row `q` of the target block, in batch `b`. -/
def dblk (x0 x1 : Vec Ideal S4x512x256 .bf16) (x2 x3 : Vec Ideal S4x512 .f32) (b : Fin 4) (p q : Fin 512) : EReal :=
  CtxSim.one - Ideal.div (∑ k : Fin 256, x0 (ix3 b p k) * x1 (ix3 b q k)) (x2 (ix2 b p) * x3 (ix2 b q) + CtxSim.eps1)

theorem dvec_apply (x0 x1 : Vec Ideal S4x512x256 .bf16) (x2 x3 : Vec Ideal S4x512 .f32) (b : Fin 4) (p q : Fin 512) :
    dvec x0 x1 x2 x3 (ix3 b p q) = dblk x0 x1 x2 x3 b p q := by
  unfold dvec dblk
  rw [shapeCast_self, shapeCast_self, shapeCast_self, shapeCast_self]
  rw [subf_apply, divf_apply, addf_apply, mulf_apply, mm_apply, col_apply, row_apply]
  rfl

end Cert.KernelIdeal.Block

end
-- ==== Proof.Payloads.lean ====
/-
  What each sweep's body stores at one grid point, at the ideal values, entry by entry, from the blocks it loaded
  (`x0`, `x1` the feature blocks, `x2`, `x3` the norm blocks, `x4` the block of minima, `x5` the block of weight sums)
  and the running block `xo` it found in its output buffer:

    sweep 0 (minimum over the targets of the tile):   new[b,p] = min (xo[b,p]) (min over q of dblk b p q)
    sweep 1 (sum over the targets of the tile):       new[b,p] = xo[b,p] + ∑ q, wblk b p q
    sweep 2 (maximum over the outputs of the tile):   new[b,q] = max (xo[b,q]) (max over p of wblk b p q / x5[b,p])

  with `wblk b p q = exp ((1 - dblk b p q / (x4[b,p] + ε₂)) / 1)`. A minimum is characterised from below and a maximum
  from above, so no order of folding enters.
-/
import proofs.«157142_j19567871001233_1_alg».proof.Proof.Block
import Idealize.ShloMosaic.PureOps.Reduce

noncomputable section

namespace Cert.KernelIdeal.Block

open Cert.KernelIdeal Cert.KernelIdeal.Gen
open Idealize.ShloMosaic Idealize.ShloMosaic.TcCoe Idealize.ShloMosaic.ValueIdx

/-- The words of +∞ and −∞. -/
theorem top_word : Ideal.ofBits .f32 0x7F800000#32 = (⊤ : EReal) := by simp [Ideal.ofBits, Ideal.ieee]
theorem bot_word : Ideal.ofBits .f32 0xFF800000#32 = (⊥ : EReal) := by simp [Ideal.ofBits, Ideal.ieee]

/-- Entry (b, p) of a [4,512] result of a reduction over the LAST axis of the tile collects the entries (b, p, q). -/
theorem lift_last (b : Fin 4) (p q : Fin 512) : reduces_S4x512x512_S4x512.lift (ix2 b p) q = ix3 b p q :=
  funext fun c => Fin.ext (by
    match c with
    | ⟨0, _⟩ => rfl
    | ⟨1, _⟩ => rfl
    | ⟨2, _⟩ => rfl)

/-- Entry (b, q) of a [4,512] result of a reduction over the MIDDLE axis of the tile collects the entries (b, p, q). -/
theorem lift_mid (b : Fin 4) (q p : Fin 512) : reduces_S4x512x512_S4x512_2.lift (ix2 b q) p = ix3 b p q :=
  funext fun c => Fin.ext (by
    match c with
    | ⟨0, _⟩ => rfl
    | ⟨1, _⟩ => rfl
    | ⟨2, _⟩ => rfl)

/-- A column [4,512,1] broadcast across the tile reads its entry (b, p, 0). -/
theorem bcol_apply {α : Type} (w : S4x512x1.Idx → α) (b : Fin 4) (p q : Fin 512) :
    broadcastTo S4x512x512 w broadcasts_S4x512x1_S4x512x512 (ix3 b p q) = w (ix3 b p (0 : Fin 1)) :=
  broadcastTo_apply _ broadcasts_S4x512x1_S4x512x512 (ix3 b p q) (ix3 b p (0 : Fin 1)) fun a => by
    match a with
    | ⟨0, _⟩ => show b.val = if (4 : Nat) = 1 then 0 else b.val; rw [if_neg (by decide)]
    | ⟨1, _⟩ => show p.val = if (512 : Nat) = 1 then 0 else p.val; rw [if_neg (by decide)]
    | ⟨2, _⟩ => show (0 : Nat) = if (1 : Nat) = 1 then 0 else q.val; rw [if_pos rfl]

/-- A [4,512] block viewed as a column [4,512,1] reads its entry (b, p). -/
theorem ccol_apply {α : Type} (v : S4x512.Idx → α) (b : Fin 4) (p : Fin 512) :
    shapeCast S4x512x1 v shapeCasts_S4x512_S4x512x1 (ix3 b p (0 : Fin 1)) = v (ix2 b p) := by
  refine shapeCast_apply v shapeCasts_S4x512_S4x512x1 (ix3 b p (0 : Fin 1)) (ix2 b p) ?_
  rw [Shape.rowMajor_val_two, Shape.rowMajor_val_three]
  show b.val * 512 + p.val = (b.val * 512 + p.val) * 1 + 0
  omega

/-! ## The three reductions of a tile, at a result entry -/

/-- A minimum over the last axis from +∞, characterised from below. -/
theorem minred_le_iff (src : FVec Ideal S4x512x512 .f32) (hφ : FKind.Formats .f32)
    (hacc : (0x7F800000#32 : BitVec 32) = 0x7F800000#32) (b : Fin 4) (p : Fin 512) (z : EReal) :
    z ≤ multiReduction .minimumf [2] S4x512 src 0x7F800000#32 reduces_S4x512x512_S4x512 hφ hacc (ix2 b p)
      ↔ ∀ q : Fin 512, z ≤ src (ix3 b p q) := by
  have e := (multiReduction_minimumf_eq_fold src 0x7F800000#32 reduces_S4x512x512_S4x512 hφ hacc (ix2 b p)).trans
    (reduces_S4x512x512_S4x512.fold_filter_drop_single FloatOps.minimumf (FloatOps.ofBits .f32 0x7F800000#32) src (ix2 b p))
  refine (e ▸ Iff.rfl : _ ↔ z ≤ (Finset.univ : Finset (Fin (S4x512x512.size 2))).fold min (Ideal.ofBits .f32 0x7F800000#32)
    (src ∘ reduces_S4x512x512_S4x512.lift (ix2 b p))).trans ?_
  rw [Finset.le_fold_min, top_word]
  constructor
  · rintro ⟨-, h2⟩ q
    exact le_of_le_of_eq (h2 q (Finset.mem_univ _)) (congrArg src (lift_last b p q))
  · intro h2
    exact ⟨le_top, fun q _ => le_of_le_of_eq (h2 q) (congrArg src (lift_last b p q)).symm⟩

/-- A maximum over the middle axis from −∞, characterised from above. -/
theorem maxred_le_iff (src : FVec Ideal S4x512x512 .f32) (hφ : FKind.Formats .f32)
    (hacc : (0xFF800000#32 : BitVec 32) = 0xFF800000#32) (b : Fin 4) (q : Fin 512) (z : EReal) :
    multiReduction .maximumf [1] S4x512 src 0xFF800000#32 reduces_S4x512x512_S4x512_2 hφ hacc (ix2 b q) ≤ z
      ↔ ∀ p : Fin 512, src (ix3 b p q) ≤ z := by
  have e := (multiReduction_maximumf_eq_fold src 0xFF800000#32 reduces_S4x512x512_S4x512_2 hφ hacc (ix2 b q)).trans
    (reduces_S4x512x512_S4x512_2.fold_filter_drop_single FloatOps.maximumf (FloatOps.ofBits .f32 0xFF800000#32) src (ix2 b q))
  refine (e ▸ Iff.rfl : _ ↔ (Finset.univ : Finset (Fin (S4x512x512.size 1))).fold max (Ideal.ofBits .f32 0xFF800000#32)
    (src ∘ reduces_S4x512x512_S4x512_2.lift (ix2 b q)) ≤ z).trans ?_
  rw [Finset.fold_max_le, bot_word]
  constructor
  · rintro ⟨-, h2⟩ p
    exact le_of_eq_of_le (congrArg src (lift_mid b q p)).symm (h2 p (Finset.mem_univ _))
  · intro h2
    exact ⟨bot_le, fun p _ => le_of_eq_of_le (congrArg src (lift_mid b q p)) (h2 p)⟩

/-- A sum over the last axis from zero. -/
theorem sumred_apply (src : FVec Ideal S4x512x512 .f32) (hφ : FKind.Formats .f32)
    (hacc : (0x00000000#32 : BitVec 32) = 0x00000000#32) (b : Fin 4) (p : Fin 512) :
    multiReduction .add [2] S4x512 src 0x00000000#32 reduces_S4x512x512_S4x512 hφ hacc (ix2 b p)
      = ∑ q : Fin 512, src (ix3 b p q) :=
  (Ideal.multiReduction_add_single src 0x00000000#32 reduces_S4x512x512_S4x512 hφ hacc (ix2 b p)).trans
    (Finset.sum_congr rfl fun q _ => congrArg src (lift_last b p q))

/-! ## Sweep 0 -/

/-- The stored block of sweep 0 is the running block against the tile's row minima. -/
theorem pay0_le_iff (x0 x1 : Vec Ideal S4x512x256 .bf16) (x2 x3 xo : Vec Ideal S4x512 .f32) (b : Fin 4) (p : Fin 512)
    (z : EReal) :
    z ≤ k0_pay2 (F := Ideal) x0 x1 x2 x3 xo (ix2 b p) ↔ z ≤ xo (ix2 b p) ∧ ∀ q : Fin 512, z ≤ dblk x0 x1 x2 x3 b p q := by
  have e : k0_pay2 (F := Ideal) x0 x1 x2 x3 xo
      = minimumf (shapeCast S4x512 xo shapeCasts_S4x512_S4x512 : FVec Ideal S4x512 .f32)
          (multiReduction .minimumf [2] S4x512 (dvec x0 x1 x2 x3) 0x7F800000#32 reduces_S4x512x512_S4x512 (.inl rfl) rfl) := rfl
  rw [e, minimumf_apply, shapeCast_self, le_min_iff]
  refine and_congr Iff.rfl ((minred_le_iff (dvec x0 x1 x2 x3) _ _ b p z).trans ?_)
  exact forall_congr' fun q => by rw [dvec_apply]

/-- The block sweep 0 starts a row of tiles from: +∞ everywhere. -/
theorem pay0_init_apply (i : S4x512.Idx) : k0_pay1 (F := Ideal) i = (⊤ : EReal) := top_word

/-! ## Sweeps 1 and 2: the weights of the tile -/

/-- The tile of normalised distances `1 - d / (m + ε₂)`, as the body's own operations. -/
def uvec (x0 x1 : Vec Ideal S4x512x256 .bf16) (x2 x3 x4 : Vec Ideal S4x512 .f32) : FVec Ideal S4x512x512 .f32 :=
  subf (broadcast S4x512x512 (Scalar.ofBits .f32 0x3F800000#32))
    (divf (dvec x0 x1 x2 x3)
      (broadcastTo S4x512x512
        (addf (shapeCast S4x512x1 (shapeCast S4x512 x4 shapeCasts_S4x512_S4x512 : FVec Ideal S4x512 .f32) shapeCasts_S4x512_S4x512x1 : FVec Ideal S4x512x1 .f32)
          (broadcast S4x512x1 (Scalar.ofBits .f32 0x3727C5AC#32)) : FVec Ideal S4x512x1 .f32)
        broadcasts_S4x512x1_S4x512x512 : FVec Ideal S4x512x512 .f32))

/-- The weight of row `p` of the output block against row `q` of the target block. -/
def wblk (x0 x1 : Vec Ideal S4x512x256 .bf16) (x2 x3 x4 : Vec Ideal S4x512 .f32) (b : Fin 4) (p q : Fin 512) : EReal :=
  Ideal.exp (Ideal.div (CtxSim.one - Ideal.div (dblk x0 x1 x2 x3 b p q) (x4 (ix2 b p) + CtxSim.eps2)) CtxSim.one)

theorem uvec_apply (x0 x1 : Vec Ideal S4x512x256 .bf16) (x2 x3 x4 : Vec Ideal S4x512 .f32) (b : Fin 4) (p q : Fin 512) :
    uvec x0 x1 x2 x3 x4 (ix3 b p q)
      = CtxSim.one - Ideal.div (dblk x0 x1 x2 x3 b p q) (x4 (ix2 b p) + CtxSim.eps2) := by
  unfold uvec
  rw [subf_apply, divf_apply, dvec_apply, bcol_apply, addf_apply, shapeCast_self, ccol_apply]
  rfl

/-- Sweep 1's tile of weights is `exp (uvec / 1)`. -/
theorem pay1_w_apply (x0 x1 : Vec Ideal S4x512x256 .bf16) (x2 x3 x4 : Vec Ideal S4x512 .f32) (b : Fin 4) (p q : Fin 512) :
    k1_pay3 (F := Ideal) x0 x1 x2 x3 x4 (ix3 b p q) = wblk x0 x1 x2 x3 x4 b p q := by
  have e : k1_pay3 (F := Ideal) x0 x1 x2 x3 x4
      = exp (divf (uvec x0 x1 x2 x3 x4) (broadcast S4x512x512 (Scalar.ofBits .f32 0x3F800000#32))) := rfl
  rw [e]
  show Ideal.exp (Ideal.div (uvec x0 x1 x2 x3 x4 (ix3 b p q)) _) = _
  rw [uvec_apply]
  rfl

/-- The stored block of sweep 1 is the running block plus the tile's row sums of weights. -/
theorem pay1_apply (x0 x1 : Vec Ideal S4x512x256 .bf16) (x2 x3 x4 xo : Vec Ideal S4x512 .f32) (b : Fin 4) (p : Fin 512) :
    k1_pay1 (F := Ideal) (k1_pay3 (F := Ideal) x0 x1 x2 x3 x4) xo (ix2 b p)
      = xo (ix2 b p) + ∑ q : Fin 512, wblk x0 x1 x2 x3 x4 b p q := by
  have e : k1_pay1 (F := Ideal) (k1_pay3 (F := Ideal) x0 x1 x2 x3 x4) xo
      = addf (shapeCast S4x512 xo shapeCasts_S4x512_S4x512 : FVec Ideal S4x512 .f32)
          (multiReduction .add [2] S4x512 (k1_pay3 (F := Ideal) x0 x1 x2 x3 x4) 0x00000000#32 reduces_S4x512x512_S4x512 (.inl rfl) rfl) := rfl
  rw [e, addf_apply, shapeCast_self]
  refine congrArg (xo (ix2 b p) + ·) ((sumred_apply _ _ _ b p).trans (Finset.sum_congr rfl fun q _ => ?_))
  exact pay1_w_apply x0 x1 x2 x3 x4 b p q

/-- The block sweep 1 starts a row of tiles from: zero everywhere. -/
theorem pay1_init_apply (i : S4x512.Idx) : k1_pay2 (F := Ideal) i = (0 : EReal) := Ideal.ofBits_zero_f32

/-- The stored block of sweep 2 is the running block against the tile's column maxima of normalised weights. -/
theorem pay2_le_iff (x0 x1 : Vec Ideal S4x512x256 .bf16) (x2 x3 x4 x5 xo : Vec Ideal S4x512 .f32) (b : Fin 4) (q : Fin 512)
    (z : EReal) :
    k2_pay1 (F := Ideal) (k2_pay3 (F := Ideal) x5) (k2_pay4 (F := Ideal) x0 x1 x2 x3 x4) (k2_pay5 (F := Ideal)) xo (ix2 b q) ≤ z
      ↔ xo (ix2 b q) ≤ z ∧ ∀ p : Fin 512, Ideal.div (wblk x0 x1 x2 x3 x4 b p q) (x5 (ix2 b p)) ≤ z := by
  have e : k2_pay1 (F := Ideal) (k2_pay3 (F := Ideal) x5) (k2_pay4 (F := Ideal) x0 x1 x2 x3 x4) (k2_pay5 (F := Ideal)) xo
      = maximumf (shapeCast S4x512 xo shapeCasts_S4x512_S4x512 : FVec Ideal S4x512 .f32)
          (multiReduction .maximumf [1] S4x512
            (divf (exp (divf (uvec x0 x1 x2 x3 x4) (broadcast S4x512x512 (Scalar.ofBits .f32 0x3F800000#32))))
              (broadcastTo S4x512x512
                (shapeCast S4x512x1 (shapeCast S4x512 x5 shapeCasts_S4x512_S4x512 : FVec Ideal S4x512 .f32) shapeCasts_S4x512_S4x512x1 : FVec Ideal S4x512x1 .f32)
                broadcasts_S4x512x1_S4x512x512 : FVec Ideal S4x512x512 .f32))
            0xFF800000#32 reduces_S4x512x512_S4x512_2 (.inl rfl) rfl) := rfl
  rw [e, maximumf_apply, shapeCast_self, max_le_iff]
  have hp : ∀ p : Fin 512,
      (divf (exp (divf (uvec x0 x1 x2 x3 x4) (broadcast S4x512x512 (Scalar.ofBits .f32 0x3F800000#32))))
        (broadcastTo S4x512x512
          (shapeCast S4x512x1 (shapeCast S4x512 x5 shapeCasts_S4x512_S4x512 : FVec Ideal S4x512 .f32) shapeCasts_S4x512_S4x512x1 : FVec Ideal S4x512x1 .f32)
          broadcasts_S4x512x1_S4x512x512 : FVec Ideal S4x512x512 .f32) : FVec Ideal S4x512x512 .f32) (ix3 b p q)
        = Ideal.div (wblk x0 x1 x2 x3 x4 b p q) (x5 (ix2 b p)) := fun p => by
    rw [divf_apply, bcol_apply, shapeCast_self, ccol_apply]
    show Ideal.div (Ideal.exp (Ideal.div (uvec x0 x1 x2 x3 x4 (ix3 b p q)) _)) _ = _
    rw [uvec_apply]
    rfl
  refine and_congr Iff.rfl ((maxred_le_iff _ _ _ b q z).trans ?_)
  exact forall_congr' fun p => by rw [hp]

/-- The block sweep 2 starts a column of tiles from: −∞ everywhere. -/
theorem pay2_init_apply (i : S4x512.Idx) : k2_pay2 (F := Ideal) i = (⊥ : EReal) := bot_word

end Cert.KernelIdeal.Block

end
-- ==== Proof.Sweep0.lean ====
/-
  The first sweep. For every batch `b` and output position `x` the result array ends holding the minimum over ALL
  4096 targets of the cosine distance, although no grid point ever sees more than a 512 × 512 tile of distances:
  the point (i, j) of the 8 × 8 grid folds tile (i, j)'s row minima into a running block that starts at +∞ when
  j = 0 and is written back after j = 7. Read from below — `z ≤ running[b,p]` iff `z` is below every distance of
  the tiles (i, 0), …, (i, j) in row p — the running block after j = 7 is below-equivalent to the minimum over all
  targets, hence equal to it.
  Stated for ANY contents `V` of the buffers at the region's entry, as the generated frame's own pieces are.
-/
import proofs.«157142_j19567871001233_1_alg».proof.Proof.Payloads
import proofs.«157142_j19567871001233_1_alg».proof.Proof.Gen.KernelIdeal.Frame
import Idealize.ShloMosaic.Lib.Pipeline.Value
import Idealize.ShloMosaic.Lib.Tactic

noncomputable section

namespace Cert.KernelIdeal.Sweep0

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Cases
variable {F : FTy → Type} [FloatOps F]

/-- A point with j ≠ 0 leaves, in the output's buffer holding `xo`, the body's one store of the loaded blocks and `xo`. -/
theorem out_B (c : Dev nD) (i : grid0.Coords) (a2 : Memref sig .tc .vmem S4x512x256 .bf16) (h2 : a2.IsWhole) (a3 : Memref sig .tc .vmem S4x512x256 .bf16) (h3 : a3.IsWhole) (a4 : Memref sig .tc .vmem S4x512 .f32) (h4 : a4.IsWhole) (a5 : Memref sig .tc .vmem S4x512 .f32) (h5 : a5.IsWhole) (a6 : Memref sig .tc .vmem S4x512 .f32) (h6 : a6.IsWhole) (hc : ¬cond0_0 i)
    (x0 x1 : Vec F S4x512x256 .bf16) (x2 x3 xo : Vec F S4x512 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero hz2]
  simp only [View.readAt_eq_ld, h2.read_unread, h3.read_unread, h4.read_unread, h5.read_unread, h6.read_unread,
    View.ld_unit_zero (S := S4x512x256) hz3, View.ld_unit_zero (S := S4x512) hz2]

/-- A point with j = 0 first stores the +∞ block, reads it back, and leaves the same store over it. -/
theorem out_A (c : Dev nD) (i : grid0.Coords) (a2 : Memref sig .tc .vmem S4x512x256 .bf16) (h2 : a2.IsWhole) (a3 : Memref sig .tc .vmem S4x512x256 .bf16) (h3 : a3.IsWhole) (a4 : Memref sig .tc .vmem S4x512 .f32) (h4 : a4.IsWhole) (a5 : Memref sig .tc .vmem S4x512 .f32) (h5 : a5.IsWhole) (a6 : Memref sig .tc .vmem S4x512 .f32) (h6 : a6.IsWhole) (hc : cond0_0 i)
    (x0 x1 : Vec F S4x512x256 .bf16) (x2 x3 : Vec F S4x512 .f32) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S4x512) hz2, View.readCov_unit_zero (S := S4x512) _ hz2]
  simp only [View.readAt_eq_ld, h2.read_unread, h3.read_unread, h4.read_unread, h5.read_unread,
    View.ld_unit_zero (S := S4x512x256) hz3, View.ld_unit_zero (S := S4x512) hz2]

end Cases

variable (V : (c : Dev nD) → (b : Ref sig .tc) → Buf (Elt Ideal) ((c : Thread nD τ).loc b))

/-- The grid has 64 points; point `t` is (i, j) = (t / 8, t % 8). -/
theorem hN : cfg0.N = 64 := N_0
def ti (t : Fin cfg0.N) : Fin 8 := ⟨t.val / 8, by have := t.isLt; have := hN; omega⟩
def tj (t : Fin cfg0.N) : Fin 8 := ⟨t.val % 8, Nat.mod_lt _ (by norm_num)⟩

/-- The printed index maps, decided over the grid: the output-side windows sit at block i, the target-side ones at block j. -/
theorem idx_facts : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8
    ∧ win0_3.index t (0 : Fin 2) = 0 ∧ win0_3.index t (1 : Fin 2) = t.val % 8
    ∧ win0_4.index t (0 : Fin 2) = 0 ∧ win0_4.index t (1 : Fin 2) = t.val / 8 :=
  (by decide +kernel : ∀ t : Fin grid0.N, _)

/-- The blocks the point reads, entry by entry, in the arrays as the region finds them. -/
theorem blk0_apply (c : Dev nD) (t : Fin cfg0.N) (b : Fin 4) (p : Fin 512) (k : Fin 256) :
    (iblk0 V c 0 t : Vec Ideal S4x512x256 .bf16) (ix3 b p k) = V c main_v22 (ix3 b (CtxSim.tile (ti t) p) k) := by
  obtain ⟨e0, e1, e2, -⟩ := idx_facts t
  unfold iblk0
  rw [View.read_apply]
  show V c main_v22 _ = V c main_v22 _
  refine congrArg (V c main_v22) (funext fun a => Fin.ext ?_)
  match a with
  | ⟨0, _⟩ => show win0_0.index t (0 : Fin 3) * 4 + 1 * b.val = b.val; omega
  | ⟨1, _⟩ => show win0_0.index t (1 : Fin 3) * 512 + 1 * p.val = 512 * (t.val / 8) + p.val; omega
  | ⟨2, _⟩ => show win0_0.index t (2 : Fin 3) * 256 + 1 * k.val = k.val; omega

theorem blk1_apply (c : Dev nD) (t : Fin cfg0.N) (b : Fin 4) (q : Fin 512) (k : Fin 256) :
    (iblk0 V c 1 t : Vec Ideal S4x512x256 .bf16) (ix3 b q k) = V c main_v23 (ix3 b (CtxSim.tile (tj t) q) k) := by
  obtain ⟨-, -, -, e0, e1, e2, -⟩ := idx_facts t
  unfold iblk0
  rw [View.read_apply]
  show V c main_v23 _ = V c main_v23 _
  refine congrArg (V c main_v23) (funext fun a => Fin.ext ?_)
  match a with
  | ⟨0, _⟩ => show win0_1.index t (0 : Fin 3) * 4 + 1 * b.val = b.val; omega
  | ⟨1, _⟩ => show win0_1.index t (1 : Fin 3) * 512 + 1 * q.val = 512 * (t.val % 8) + q.val; omega
  | ⟨2, _⟩ => show win0_1.index t (2 : Fin 3) * 256 + 1 * k.val = k.val; omega

theorem blk2_apply (c : Dev nD) (t : Fin cfg0.N) (b : Fin 4) (p : Fin 512) :
    (iblk0 V c 2 t : Vec Ideal S4x512 .f32) (ix2 b p) = V c main_v10 (ix2 b (CtxSim.tile (ti t) p)) := by
  obtain ⟨-, -, -, -, -, -, e0, e1, -⟩ := idx_facts t
  unfold iblk0
  rw [View.read_apply]
  show V c main_v10 _ = V c main_v10 _
  refine congrArg (V c main_v10) (funext fun a => Fin.ext ?_)
  match a with
  | ⟨0, _⟩ => show win0_2.index t (0 : Fin 2) * 4 + 1 * b.val = b.val; omega
  | ⟨1, _⟩ => show win0_2.index t (1 : Fin 2) * 512 + 1 * p.val = 512 * (t.val / 8) + p.val; omega

theorem blk3_apply (c : Dev nD) (t : Fin cfg0.N) (b : Fin 4) (q : Fin 512) :
    (iblk0 V c 3 t : Vec Ideal S4x512 .f32) (ix2 b q) = V c main_v21 (ix2 b (CtxSim.tile (tj t) q)) := by
  obtain ⟨-, -, -, -, -, -, -, -, e0, e1, -⟩ := idx_facts t
  unfold iblk0
  rw [View.read_apply]
  show V c main_v21 _ = V c main_v21 _
  refine congrArg (V c main_v21) (funext fun a => Fin.ext ?_)
  match a with
  | ⟨0, _⟩ => show win0_3.index t (0 : Fin 2) * 4 + 1 * b.val = b.val; omega
  | ⟨1, _⟩ => show win0_3.index t (1 : Fin 2) * 512 + 1 * q.val = 512 * (t.val % 8) + q.val; omega

/-- The tile of distances the point computes is the (i, j) tile of the full matrix of distances. -/
theorem dblk_eq (c : Dev nD) (t : Fin cfg0.N) (b : Fin 4) (p q : Fin 512) :
    dblk (iblk0 V c 0 t) (iblk0 V c 1 t) (iblk0 V c 2 t) (iblk0 V c 3 t) b p q
      = CtxSim.dist (V c main_v22) (V c main_v23) (V c main_v10) (V c main_v21) b (CtxSim.tile (ti t) p) (CtxSim.tile (tj t) q) := by
  unfold dblk CtxSim.dist CtxSim.inner
  rw [blk2_apply, blk3_apply]
  refine congrArg (fun s => CtxSim.one - Ideal.div s _) (Finset.sum_congr rfl fun k _ => ?_)
  rw [blk0_apply, blk1_apply]

/-- What the point stores, read from below, over a running block `xo`. -/
theorem step_le_iff (c : Dev nD) (t : Fin cfg0.N) (xo : Vec Ideal S4x512 .f32) (b : Fin 4) (p : Fin 512) (z : EReal) :
    z ≤ k0_pay2 (F := Ideal) (iblk0 V c 0 t) (iblk0 V c 1 t) (iblk0 V c 2 t) (iblk0 V c 3 t) xo (ix2 b p)
      ↔ z ≤ xo (ix2 b p) ∧ ∀ q : Fin 512,
          z ≤ CtxSim.dist (V c main_v22) (V c main_v23) (V c main_v10) (V c main_v21) b (CtxSim.tile (ti t) p) (CtxSim.tile (tj t) q) :=
  (pay0_le_iff _ _ _ _ xo b p z).trans (and_congr Iff.rfl (forall_congr' fun q => by rw [dblk_eq]))

/-- What the running block holds after point `n`, read from below: below every distance of row p in the tiles
    (i, 0), …, (i, j) of the point's row of tiles. By induction on the point: a point with j = 0 starts from +∞,
    any other continues from what the point before left. -/
theorem inv (c : Dev nD) : ∀ (n : ℕ) (hn : n < cfg0.N) (b : Fin 4) (p : Fin 512) (z : EReal),
    z ≤ outsAt0 V c n hn (ix2 b p) ↔
      ∀ j : Fin 8, j.val ≤ n % 8 → ∀ q : Fin 512,
        z ≤ CtxSim.dist (V c main_v22) (V c main_v23) (V c main_v10) (V c main_v21) b
              (CtxSim.tile (ti ⟨n, hn⟩) p) (CtxSim.tile j q) := by
  intro n
  induction n using Nat.strong_induction_on with
  | _ n ih =>
    intro hn b p z
    have h64 := hN
    by_cases h0 : n % 8 = 0
    · rw [outsAt0_A V c ⟨n, hn⟩ h0, out_A, step_le_iff, pay0_init_apply]
      constructor
      · rintro ⟨-, h⟩ j hj q
        have hj' : j = tj ⟨n, hn⟩ := Fin.ext (by show j.val = n % 8; omega)
        rw [hj']; exact h q
      · intro h
        exact ⟨le_top, fun q => h (tj ⟨n, hn⟩) (le_refl _) q⟩
    · have hn1 : n - 1 < cfg0.N := by omega
      rw [outsAt0_B V c ⟨n, hn⟩ h0, out_B, step_le_iff]
      show z ≤ outsAt0 V c (n - 1) _ (ix2 b p) ∧ _ ↔ _
      rw [ih (n - 1) (by omega) hn1 b p z]
      have hti : ti ⟨n - 1, hn1⟩ = ti ⟨n, hn⟩ := Fin.ext (by show (n - 1) / 8 = n / 8; omega)
      rw [hti]
      constructor
      · rintro ⟨h1, h2⟩ j hj q
        by_cases hjn : j.val = n % 8
        · have hj' : j = tj ⟨n, hn⟩ := Fin.ext hjn
          rw [hj']; exact h2 q
        · exact h1 j (by omega) q
      · intro h
        exact ⟨fun j hj q => h j (by omega) q, fun q => h (tj ⟨n, hn⟩) (le_refl _) q⟩

/-- The array of minima over all targets, from the arrays as the region finds them. -/
def G (c : Dev nD) : Buf (Elt Ideal) ((c : Thread nD τ).loc main_v24) :=
  CtxSim.dminArr (V c main_v22) (V c main_v23) (V c main_v10) (V c main_v21)

/-- The write-backs happen after j = 7, and what is written back is the block of `G` under it. -/
theorem flushed_eq (c : Dev nD) (t : Fin cfg0.N) (hf : (cfg0.win 4).flush t = true) :
    (dat0 V c).flushed 4 t = ((cfg0.win 4).blk t).view.read (Elt Ideal) (G V c) := by
  have h7 : t.val % 8 = 7 := (flush0_4 t).mp hf
  obtain ⟨-, -, -, -, -, -, -, -, -, -, e0, e1⟩ := idx_facts t
  show (cfg0.win 4).cut (grid0.coords t) ((dat0 V c).after 4 t) = _
  rw [after0_4]
  funext y
  obtain ⟨b, p, rfl⟩ : ∃ (b : Fin 4) (p : Fin 512), y = ix2 b p := ⟨y 0, y 1, eq_ix2 y⟩
  rw [View.read_apply]
  have he : ((cfg0.win 4).blk t).view.emb (ix2 b p) = ix2 b (CtxSim.tile (ti t) p) := funext fun a => Fin.ext (by
    match a with
    | ⟨0, _⟩ => show win0_4.index t (0 : Fin 2) * 4 + 1 * b.val = b.val; omega
    | ⟨1, _⟩ => show win0_4.index t (1 : Fin 2) * 512 + 1 * p.val = 512 * (t.val / 8) + p.val; omega)
  rw [he]
  show outsAt0 V c t.val t.isLt (ix2 b p) = CtxSim.dmin (V c main_v22) (V c main_v23) (V c main_v10) (V c main_v21) b (CtxSim.tile (ti t) p)
  refine eq_of_forall_le_iff fun z => ?_
  rw [inv V c t.val t.isLt b p z]
  unfold CtxSim.dmin
  rw [le_iInf_iff]
  constructor
  · intro h y
    rw [CtxSim.eq_tile y]
    exact h _ (by have := y.isLt; show y.val / 512 ≤ t.val % 8; omega) _
  · intro h j _ q
    exact h (CtxSim.tile j q)

/-- An index of the array is in point `t`'s block iff each coordinate is in the block's range on its axis. -/
theorem mem_blk (t : Fin cfg0.N) (i : S4x4096.Idx) :
    i ∈ ((cfg0.win 4).blk t).view.set ↔ ∀ a : Fin 2, win0_4.index t a * S4x512.size a ≤ (i a).val ∧ (i a).val < win0_4.index t a * S4x512.size a + S4x512.size a := by
  show i ∈ ((View.whole main_v24).slice (win0_4.rect t)).set ↔ _
  rw [View.set_slice_whole, Rect.mem_set_unit]
  exact Iff.rfl

/-- Every entry of the array lies in the block written back after the last tile of its row of tiles. -/
theorem final (c : Dev nD) : (dat0 V c).arrAt 4 cfg0.N = G V c :=
  (dat0 V c).arrAt_eq_of_cover 4 (G V c) (flushed_eq V c) fun i => by
    have h0 : (i 0).val < 4 := (i 0).isLt
    have h1 : (i 1).val < 4096 := (i 1).isLt
    have h64 := hN
    have ht : 8 * ((i 1).val / 512) + 7 < cfg0.N := by omega
    obtain ⟨-, -, -, -, -, -, -, -, -, -, e0, e1⟩ := idx_facts ⟨8 * ((i 1).val / 512) + 7, ht⟩
    refine ⟨⟨8 * ((i 1).val / 512) + 7, ht⟩, (flush0_4 _).mpr (by show (8 * ((i 1).val / 512) + 7) % 8 = 7; omega), ?_⟩
    rw [mem_blk]
    intro a
    match a with
    | ⟨0, _⟩ =>
      show win0_4.index ⟨8 * ((i 1).val / 512) + 7, ht⟩ (0 : Fin 2) * 4 ≤ (i 0).val ∧ (i 0).val < win0_4.index ⟨8 * ((i 1).val / 512) + 7, ht⟩ (0 : Fin 2) * 4 + 4
      omega
    | ⟨1, _⟩ =>
      show win0_4.index ⟨8 * ((i 1).val / 512) + 7, ht⟩ (1 : Fin 2) * 512 ≤ (i 1).val ∧ (i 1).val < win0_4.index ⟨8 * ((i 1).val / 512) + 7, ht⟩ (1 : Fin 2) * 512 + 512
      have e1' : win0_4.index ⟨8 * ((i 1).val / 512) + 7, ht⟩ (1 : Fin 2) = (i 1).val / 512 := by rw [e1]; show (8 * ((i 1).val / 512) + 7) / 8 = _; omega
      omega

end Cert.KernelIdeal.Sweep0

end
-- ==== Proof.Tiles.lean ====
/-
  The 4096 columns as eight tiles of 512.

  Column `512·j + q` is position `q` of tile `j`; dividing a column by 512 with remainder inverts that, so the pairs
  (tile, position) are in bijection with the columns, and a sum over the columns is the sum over the tiles of the sums
  over the positions inside each.
-/
import proofs.«157142_j19567871001233_1_alg».proof.Proof.Spec

noncomputable section

namespace CtxSim

/-- The pairs (tile, position) are the columns. -/
def tileEquiv : Fin 8 × Fin 512 ≃ Fin 4096 where
  toFun p := tile p.1 p.2
  invFun y := (⟨y.val / 512, by have := y.isLt; omega⟩, ⟨y.val % 512, Nat.mod_lt _ (by norm_num)⟩)
  left_inv p := by
    obtain ⟨j, q⟩ := p
    have hj := j.isLt
    have hq := q.isLt
    refine Prod.ext (Fin.ext ?_) (Fin.ext ?_)
    · show (512 * j.val + q.val) / 512 = j.val
      omega
    · show (512 * j.val + q.val) % 512 = q.val
      omega
  right_inv y := (eq_tile y).symm

/-- A sum over the columns, tile by tile. -/
theorem sum_tile (f : Fin 4096 → EReal) : ∑ y : Fin 4096, f y = ∑ j : Fin 8, ∑ q : Fin 512, f (tile j q) :=
  (Equiv.sum_comp tileEquiv f).symm.trans (Fintype.sum_prod_type fun p : Fin 8 × Fin 512 => f (tileEquiv p))

end CtxSim

end
-- ==== Proof.Sweep1.lean ====
/-
  The second sweep. For every batch `b` and output position `x` the result array ends holding the sum over ALL 4096
  targets of the weights `exp ((1 - d / (m + ε₂)) / 1)`, `m` read from the array of minima as the region finds it:
  the point (i, j) adds tile (i, j)'s row sums into a running block that starts at zero when j = 0 and is written
  back after j = 7. After point (i, j) the running block is the sum over the tiles (i, 0), …, (i, j); the extended
  reals add commutatively and associatively, so after j = 7 that is the sum over all the targets.
  Stated for ANY contents `V` of the buffers at the region's entry.
-/
import proofs.«157142_j19567871001233_1_alg».proof.Proof.Payloads
import proofs.«157142_j19567871001233_1_alg».proof.Proof.Tiles
import proofs.«157142_j19567871001233_1_alg».proof.Proof.Gen.KernelIdeal.Frame
import Idealize.ShloMosaic.Lib.Pipeline.Value
import Idealize.ShloMosaic.Lib.Tactic

noncomputable section

namespace Cert.KernelIdeal.Sweep1

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Cases
variable {F : FTy → Type} [FloatOps F]

/-- A point with j ≠ 0 leaves, in the output's buffer holding `xo`, the body's one store of the loaded blocks and `xo`. -/
theorem out_B (c : Dev nD) (i : grid1.Coords) (a2 : Memref sig .tc .vmem S4x512x256 .bf16) (h2 : a2.IsWhole) (a3 : Memref sig .tc .vmem S4x512x256 .bf16) (h3 : a3.IsWhole) (a4 : Memref sig .tc .vmem S4x512 .f32) (h4 : a4.IsWhole) (a5 : Memref sig .tc .vmem S4x512 .f32) (h5 : a5.IsWhole) (a6 : Memref sig .tc .vmem S4x512 .f32) (h6 : a6.IsWhole) (a7 : Memref sig .tc .vmem S4x512 .f32) (h7 : a7.IsWhole) (hc : ¬cond1_0 i)
    (x0 x1 : Vec F S4x512x256 .bf16) (x2 x3 x4 xo : Vec F S4x512 .f32) :
    out1_B_5 c i a2 h2 a3 h3 a4 h4 a5 h5 a6 h6 a7 h7 hc x0 x1 x2 x3 x4 xo = k1_pay1 (k1_pay3 x0 x1 x2 x3 x4) xo := by
  unfold out1_B_5
  rw [View.read_writes_eq_canon _ _ _ (cover1_B_5 c i a2 h2 a3 h3 a4 h4 a5 h5 a6 h6 a7 h7 hc x0 x1 x2 x3 x4 xo)]
  unfold kernelRun1_B
  dsimp only
  sl_unfold_words
  rw [View.canon_unit_zero hz2]
  simp only [View.readAt_eq_ld, h2.read_unread, h3.read_unread, h4.read_unread, h5.read_unread, h6.read_unread, h7.read_unread,
    View.ld_unit_zero (S := S4x512x256) hz3, View.ld_unit_zero (S := S4x512) hz2]

/-- A point with j = 0 first stores the zero block, reads it back, and leaves the same store over it. -/
theorem out_A (c : Dev nD) (i : grid1.Coords) (a2 : Memref sig .tc .vmem S4x512x256 .bf16) (h2 : a2.IsWhole) (a3 : Memref sig .tc .vmem S4x512x256 .bf16) (h3 : a3.IsWhole) (a4 : Memref sig .tc .vmem S4x512 .f32) (h4 : a4.IsWhole) (a5 : Memref sig .tc .vmem S4x512 .f32) (h5 : a5.IsWhole) (a6 : Memref sig .tc .vmem S4x512 .f32) (h6 : a6.IsWhole) (a7 : Memref sig .tc .vmem S4x512 .f32) (h7 : a7.IsWhole) (hc : cond1_0 i)
    (x0 x1 : Vec F S4x512x256 .bf16) (x2 x3 x4 : Vec F S4x512 .f32) :
    out1_A_5 c i a2 h2 a3 h3 a4 h4 a5 h5 a6 h6 a7 h7 hc x0 x1 x2 x3 x4 = k1_pay1 (k1_pay3 x0 x1 x2 x3 x4) (k1_pay2 (F := F)) := by
  unfold out1_A_5
  rw [View.read_writes_eq_canon _ _ _ (cover1_A_5 c i a2 h2 a3 h3 a4 h4 a5 h5 a6 h6 a7 h7 hc x0 x1 x2 x3 x4)]
  unfold kernelRun1_A
  dsimp only
  sl_unfold_words
  rw [View.canon_cons_unit_zero (S := S4x512) hz2, View.readCov_unit_zero (S := S4x512) _ hz2]
  simp only [View.readAt_eq_ld, h2.read_unread, h3.read_unread, h4.read_unread, h5.read_unread, h6.read_unread,
    View.ld_unit_zero (S := S4x512x256) hz3, View.ld_unit_zero (S := S4x512) hz2]

end Cases

variable (V : (c : Dev nD) → (b : Ref sig .tc) → Buf (Elt Ideal) ((c : Thread nD τ).loc b))

/-- The grid has 64 points; point `t` is (i, j) = (t / 8, t % 8). -/
theorem hN : cfg1.N = 64 := N_1
def ti (t : Fin cfg1.N) : Fin 8 := ⟨t.val / 8, by have := t.isLt; have := hN; omega⟩
def tj (t : Fin cfg1.N) : Fin 8 := ⟨t.val % 8, Nat.mod_lt _ (by norm_num)⟩

/-- The printed index maps, decided over the grid: the output-side windows sit at block i, the target-side ones at block j. -/
theorem idx_facts : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val / 8
    ∧ win1_3.index t (0 : Fin 2) = 0 ∧ win1_3.index t (1 : Fin 2) = t.val % 8
    ∧ win1_4.index t (0 : Fin 2) = 0 ∧ win1_4.index t (1 : Fin 2) = t.val / 8
    ∧ win1_5.index t (0 : Fin 2) = 0 ∧ win1_5.index t (1 : Fin 2) = t.val / 8 :=
  (by decide +kernel : ∀ t : Fin grid1.N, _)

/-- The blocks the point reads, entry by entry, in the arrays as the region finds them. -/
theorem blk0_apply (c : Dev nD) (t : Fin cfg1.N) (b : Fin 4) (p : Fin 512) (k : Fin 256) :
    (iblk1 V c 0 t : Vec Ideal S4x512x256 .bf16) (ix3 b p k) = V c main_v22 (ix3 b (CtxSim.tile (ti t) p) k) := by
  have e := idx_facts t
  unfold iblk1
  rw [View.read_apply]
  show V c main_v22 _ = V c main_v22 _
  refine congrArg (V c main_v22) (funext fun a => Fin.ext ?_)
  match a with
  | ⟨0, _⟩ => show win1_0.index t (0 : Fin 3) * 4 + 1 * b.val = b.val; omega
  | ⟨1, _⟩ => show win1_0.index t (1 : Fin 3) * 512 + 1 * p.val = 512 * (t.val / 8) + p.val; omega
  | ⟨2, _⟩ => show win1_0.index t (2 : Fin 3) * 256 + 1 * k.val = k.val; omega

theorem blk1_apply (c : Dev nD) (t : Fin cfg1.N) (b : Fin 4) (q : Fin 512) (k : Fin 256) :
    (iblk1 V c 1 t : Vec Ideal S4x512x256 .bf16) (ix3 b q k) = V c main_v23 (ix3 b (CtxSim.tile (tj t) q) k) := by
  have e := idx_facts t
  unfold iblk1
  rw [View.read_apply]
  show V c main_v23 _ = V c main_v23 _
  refine congrArg (V c main_v23) (funext fun a => Fin.ext ?_)
  match a with
  | ⟨0, _⟩ => show win1_1.index t (0 : Fin 3) * 4 + 1 * b.val = b.val; omega
  | ⟨1, _⟩ => show win1_1.index t (1 : Fin 3) * 512 + 1 * q.val = 512 * (t.val % 8) + q.val; omega
  | ⟨2, _⟩ => show win1_1.index t (2 : Fin 3) * 256 + 1 * k.val = k.val; omega

theorem blk2_apply (c : Dev nD) (t : Fin cfg1.N) (b : Fin 4) (p : Fin 512) :
    (iblk1 V c 2 t : Vec Ideal S4x512 .f32) (ix2 b p) = V c main_v10 (ix2 b (CtxSim.tile (ti t) p)) := by
  have e := idx_facts t
  unfold iblk1
  rw [View.read_apply]
  show V c main_v10 _ = V c main_v10 _
  refine congrArg (V c main_v10) (funext fun a => Fin.ext ?_)
  match a with
  | ⟨0, _⟩ => show win1_2.index t (0 : Fin 2) * 4 + 1 * b.val = b.val; omega
  | ⟨1, _⟩ => show win1_2.index t (1 : Fin 2) * 512 + 1 * p.val = 512 * (t.val / 8) + p.val; omega

theorem blk3_apply (c : Dev nD) (t : Fin cfg1.N) (b : Fin 4) (q : Fin 512) :
    (iblk1 V c 3 t : Vec Ideal S4x512 .f32) (ix2 b q) = V c main_v21 (ix2 b (CtxSim.tile (tj t) q)) := by
  have e := idx_facts t
  unfold iblk1
  rw [View.read_apply]
  show V c main_v21 _ = V c main_v21 _
  refine congrArg (V c main_v21) (funext fun a => Fin.ext ?_)
  match a with
  | ⟨0, _⟩ => show win1_3.index t (0 : Fin 2) * 4 + 1 * b.val = b.val; omega
  | ⟨1, _⟩ => show win1_3.index t (1 : Fin 2) * 512 + 1 * q.val = 512 * (t.val % 8) + q.val; omega

theorem blk4_apply (c : Dev nD) (t : Fin cfg1.N) (b : Fin 4) (p : Fin 512) :
    (iblk1 V c 4 t : Vec Ideal S4x512 .f32) (ix2 b p) = V c main_v24 (ix2 b (CtxSim.tile (ti t) p)) := by
  have e := idx_facts t
  unfold iblk1
  rw [View.read_apply]
  show V c main_v24 _ = V c main_v24 _
  refine congrArg (V c main_v24) (funext fun a => Fin.ext ?_)
  match a with
  | ⟨0, _⟩ => show win1_4.index t (0 : Fin 2) * 4 + 1 * b.val = b.val; omega
  | ⟨1, _⟩ => show win1_4.index t (1 : Fin 2) * 512 + 1 * p.val = 512 * (t.val / 8) + p.val; omega

/-- The tile of weights the point computes is the (i, j) tile of the full matrix of weights. -/
theorem wblk_eq (c : Dev nD) (t : Fin cfg1.N) (b : Fin 4) (p q : Fin 512) :
    wblk (iblk1 V c 0 t) (iblk1 V c 1 t) (iblk1 V c 2 t) (iblk1 V c 3 t) (iblk1 V c 4 t) b p q
      = CtxSim.wgt (V c main_v22) (V c main_v23) (V c main_v10) (V c main_v21) (V c main_v24) b
          (CtxSim.tile (ti t) p) (CtxSim.tile (tj t) q) := by
  unfold wblk CtxSim.wgt dblk CtxSim.dist CtxSim.inner
  rw [blk2_apply, blk3_apply, blk4_apply]
  refine congrArg (fun s => Ideal.exp (Ideal.div (CtxSim.one - Ideal.div (CtxSim.one - Ideal.div s _) _) CtxSim.one))
    (Finset.sum_congr rfl fun k _ => ?_)
  rw [blk0_apply, blk1_apply]

/-- What the point stores over a running block `xo`: `xo` plus the row sums of the tile of weights. -/
theorem step_eq (c : Dev nD) (t : Fin cfg1.N) (xo : Vec Ideal S4x512 .f32) (b : Fin 4) (p : Fin 512) :
    k1_pay1 (F := Ideal) (k1_pay3 (F := Ideal) (iblk1 V c 0 t) (iblk1 V c 1 t) (iblk1 V c 2 t) (iblk1 V c 3 t) (iblk1 V c 4 t)) xo (ix2 b p)
      = xo (ix2 b p) + ∑ q : Fin 512, CtxSim.wgt (V c main_v22) (V c main_v23) (V c main_v10) (V c main_v21) (V c main_v24) b
          (CtxSim.tile (ti t) p) (CtxSim.tile (tj t) q) :=
  (pay1_apply _ _ _ _ _ xo b p).trans (congrArg (xo (ix2 b p) + ·) (Finset.sum_congr rfl fun q _ => wblk_eq V c t b p q))

/-- What the running block holds after point `n`: the sum of the weights of row p over the tiles (i, 0), …, (i, j) of the
    point's row of tiles. By induction on the point: a point with j = 0 starts from zero, any other continues from
    what the point before left. -/
theorem inv (c : Dev nD) : ∀ (n : ℕ) (hn : n < cfg1.N) (b : Fin 4) (p : Fin 512),
    outsAt1 V c n hn (ix2 b p) =
      ∑ j ∈ Finset.univ.filter (fun j : Fin 8 => j.val ≤ n % 8), ∑ q : Fin 512,
        CtxSim.wgt (V c main_v22) (V c main_v23) (V c main_v10) (V c main_v21) (V c main_v24) b
          (CtxSim.tile (ti ⟨n, hn⟩) p) (CtxSim.tile j q) := by
  intro n
  induction n using Nat.strong_induction_on with
  | _ n ih =>
    intro hn b p
    have h64 := hN
    by_cases h0 : n % 8 = 0
    · rw [outsAt1_A V c ⟨n, hn⟩ h0, out_A, step_eq, pay1_init_apply, zero_add]
      have hf : Finset.univ.filter (fun j : Fin 8 => j.val ≤ n % 8) = {tj ⟨n, hn⟩} := by
        ext j
        simp only [Finset.mem_filter, Finset.mem_univ, true_and, Finset.mem_singleton, Fin.ext_iff]
        show j.val ≤ n % 8 ↔ j.val = n % 8
        omega
      rw [hf, Finset.sum_singleton]
    · have hn1 : n - 1 < cfg1.N := by omega
      rw [outsAt1_B V c ⟨n, hn⟩ h0, out_B, step_eq]
      show outsAt1 V c (n - 1) _ (ix2 b p) + _ = _
      rw [ih (n - 1) (by omega) hn1 b p]
      have hti : ti ⟨n - 1, hn1⟩ = ti ⟨n, hn⟩ := Fin.ext (by show (n - 1) / 8 = n / 8; omega)
      rw [hti]
      have hf : Finset.univ.filter (fun j : Fin 8 => j.val ≤ n % 8)
          = insert (tj ⟨n, hn⟩) (Finset.univ.filter (fun j : Fin 8 => j.val ≤ (n - 1) % 8)) := by
        ext j
        simp only [Finset.mem_filter, Finset.mem_univ, true_and, Finset.mem_insert, Fin.ext_iff]
        show j.val ≤ n % 8 ↔ j.val = n % 8 ∨ j.val ≤ (n - 1) % 8
        omega
      have hnot : tj ⟨n, hn⟩ ∉ Finset.univ.filter (fun j : Fin 8 => j.val ≤ (n - 1) % 8) := by
        simp only [Finset.mem_filter, Finset.mem_univ, true_and]
        show ¬ n % 8 ≤ (n - 1) % 8
        omega
      rw [hf, Finset.sum_insert hnot, add_comm]

/-- The array of sums over all targets, from the arrays as the region finds them. -/
def G (c : Dev nD) : Buf (Elt Ideal) ((c : Thread nD τ).loc main_v25) :=
  fun i => CtxSim.wsum (V c main_v22) (V c main_v23) (V c main_v10) (V c main_v21) (V c main_v24) (i 0) (i 1)

/-- The write-backs happen after j = 7, and what is written back is the block of `G` under it. -/
theorem flushed_eq (c : Dev nD) (t : Fin cfg1.N) (hf : (cfg1.win 5).flush t = true) :
    (dat1 V c).flushed 5 t = ((cfg1.win 5).blk t).view.read (Elt Ideal) (G V c) := by
  have h7 : t.val % 8 = 7 := (flush1_5 t).mp hf
  have e := idx_facts t
  show (cfg1.win 5).cut (grid1.coords t) ((dat1 V c).after 5 t) = _
  rw [after1_5]
  funext y
  obtain ⟨b, p, rfl⟩ : ∃ (b : Fin 4) (p : Fin 512), y = ix2 b p := ⟨y 0, y 1, eq_ix2 y⟩
  rw [View.read_apply]
  have he : ((cfg1.win 5).blk t).view.emb (ix2 b p) = ix2 b (CtxSim.tile (ti t) p) := funext fun a => Fin.ext (by
    match a with
    | ⟨0, _⟩ => show win1_5.index t (0 : Fin 2) * 4 + 1 * b.val = b.val; omega
    | ⟨1, _⟩ => show win1_5.index t (1 : Fin 2) * 512 + 1 * p.val = 512 * (t.val / 8) + p.val; omega)
  rw [he]
  show outsAt1 V c t.val t.isLt (ix2 b p)
    = CtxSim.wsum (V c main_v22) (V c main_v23) (V c main_v10) (V c main_v21) (V c main_v24) b (CtxSim.tile (ti t) p)
  rw [inv V c t.val t.isLt b p]
  unfold CtxSim.wsum
  rw [CtxSim.sum_tile]
  refine Finset.sum_congr (Finset.filter_true_of_mem fun j _ => ?_) fun _ _ => rfl
  have := j.isLt
  omega

/-- An index of the array is in point `t`'s block iff each coordinate is in the block's range on its axis. -/
theorem mem_blk (t : Fin cfg1.N) (i : S4x4096.Idx) :
    i ∈ ((cfg1.win 5).blk t).view.set ↔ ∀ a : Fin 2, win1_5.index t a * S4x512.size a ≤ (i a).val ∧ (i a).val < win1_5.index t a * S4x512.size a + S4x512.size a := by
  show i ∈ ((View.whole main_v25).slice (win1_5.rect t)).set ↔ _
  rw [View.set_slice_whole, Rect.mem_set_unit]
  exact Iff.rfl

/-- Every entry of the array lies in the block written back after the last tile of its row of tiles. -/
theorem final (c : Dev nD) : (dat1 V c).arrAt 5 cfg1.N = G V c :=
  (dat1 V c).arrAt_eq_of_cover 5 (G V c) (flushed_eq V c) fun i => by
    have h0 : (i 0).val < 4 := (i 0).isLt
    have h1 : (i 1).val < 4096 := (i 1).isLt
    have h64 := hN
    have ht : 8 * ((i 1).val / 512) + 7 < cfg1.N := by omega
    have e := idx_facts ⟨8 * ((i 1).val / 512) + 7, ht⟩
    refine ⟨⟨8 * ((i 1).val / 512) + 7, ht⟩, (flush1_5 _).mpr (by show (8 * ((i 1).val / 512) + 7) % 8 = 7; omega), ?_⟩
    rw [mem_blk]
    intro a
    match a with
    | ⟨0, _⟩ =>
      show win1_5.index ⟨8 * ((i 1).val / 512) + 7, ht⟩ (0 : Fin 2) * 4 ≤ (i 0).val ∧ (i 0).val < win1_5.index ⟨8 * ((i 1).val / 512) + 7, ht⟩ (0 : Fin 2) * 4 + 4
      omega
    | ⟨1, _⟩ =>
      show win1_5.index ⟨8 * ((i 1).val / 512) + 7, ht⟩ (1 : Fin 2) * 512 ≤ (i 1).val ∧ (i 1).val < win1_5.index ⟨8 * ((i 1).val / 512) + 7, ht⟩ (1 : Fin 2) * 512 + 512
      have e1' : win1_5.index ⟨8 * ((i 1).val / 512) + 7, ht⟩ (1 : Fin 2) = (i 1).val / 512 := by
        rw [e.2.2.2.2.2.2.2.2.2.2.2.2.2]; show (8 * ((i 1).val / 512) + 7) / 8 = _; omega
      omega

end Cert.KernelIdeal.Sweep1

end
-- ==== Proof.Sweep2.lean ====
/-
  The third sweep. For every batch `b` and target position `y` the result array ends holding the maximum over ALL
  4096 outputs `x` of the normalised weight `wgt b x y / ws[b,x]`, the minima `m` and the sums `ws` read from the
  arrays as the region finds them. Here the grid is (target tile, output tile): the point (j, i) folds the column
  maxima of tile (i, j) into a running block that starts at −∞ when i = 0 and is written back after i = 7. Read from
  above — `running[b,q] ≤ z` iff every normalised weight of column q in the tiles (0, j), …, (i, j) is ≤ z — the
  running block after i = 7 is above-equivalent to the maximum over all outputs, hence equal to it.
  Stated for ANY contents `V` of the buffers at the region's entry.
-/
import proofs.«157142_j19567871001233_1_alg».proof.Proof.Payloads
import proofs.«157142_j19567871001233_1_alg».proof.Proof.Gen.KernelIdeal.Frame
import Idealize.ShloMosaic.Lib.Pipeline.Value
import Idealize.ShloMosaic.Lib.Tactic

noncomputable section

namespace Cert.KernelIdeal.Sweep2

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Cases
variable {F : FTy → Type} [FloatOps F]

/-- A point with i ≠ 0 leaves, in the output's buffer holding `xo`, the body's one store of the loaded blocks and `xo`. -/
theorem out_B (c : Dev nD) (i : grid2.Coords) (a2 : Memref sig .tc .vmem S4x512x256 .bf16) (h2 : a2.IsWhole) (a3 : Memref sig .tc .vmem S4x512x256 .bf16) (h3 : a3.IsWhole) (a4 : Memref sig .tc .vmem S4x512 .f32) (h4 : a4.IsWhole) (a5 : Memref sig .tc .vmem S4x512 .f32) (h5 : a5.IsWhole) (a6 : Memref sig .tc .vmem S4x512 .f32) (h6 : a6.IsWhole) (a7 : Memref sig .tc .vmem S4x512 .f32) (h7 : a7.IsWhole) (a8 : Memref sig .tc .vmem S4x512 .f32) (h8 : a8.IsWhole) (hc : ¬cond2_0 i)
    (x0 x1 : Vec F S4x512x256 .bf16) (x2 x3 x4 x5 xo : Vec F S4x512 .f32) :
    out2_B_6 c i a2 h2 a3 h3 a4 h4 a5 h5 a6 h6 a7 h7 a8 h8 hc x0 x1 x2 x3 x4 x5 xo
      = k2_pay1 (k2_pay3 x5) (k2_pay4 x0 x1 x2 x3 x4) (k2_pay5 (F := F)) xo := by
  unfold out2_B_6
  rw [View.read_writes_eq_canon _ _ _ (cover2_B_6 c i a2 h2 a3 h3 a4 h4 a5 h5 a6 h6 a7 h7 a8 h8 hc x0 x1 x2 x3 x4 x5 xo)]
  unfold kernelRun2_B
  dsimp only
  sl_unfold_words
  rw [View.canon_unit_zero hz2]
  simp only [View.readAt_eq_ld, h2.read_unread, h3.read_unread, h4.read_unread, h5.read_unread, h6.read_unread, h7.read_unread,
    h8.read_unread, View.ld_unit_zero (S := S4x512x256) hz3, View.ld_unit_zero (S := S4x512) hz2]

/-- A point with i = 0 first stores the −∞ block, reads it back, and leaves the same store over it. -/
theorem out_A (c : Dev nD) (i : grid2.Coords) (a2 : Memref sig .tc .vmem S4x512x256 .bf16) (h2 : a2.IsWhole) (a3 : Memref sig .tc .vmem S4x512x256 .bf16) (h3 : a3.IsWhole) (a4 : Memref sig .tc .vmem S4x512 .f32) (h4 : a4.IsWhole) (a5 : Memref sig .tc .vmem S4x512 .f32) (h5 : a5.IsWhole) (a6 : Memref sig .tc .vmem S4x512 .f32) (h6 : a6.IsWhole) (a7 : Memref sig .tc .vmem S4x512 .f32) (h7 : a7.IsWhole) (a8 : Memref sig .tc .vmem S4x512 .f32) (h8 : a8.IsWhole) (hc : cond2_0 i)
    (x0 x1 : Vec F S4x512x256 .bf16) (x2 x3 x4 x5 : Vec F S4x512 .f32) :
    out2_A_6 c i a2 h2 a3 h3 a4 h4 a5 h5 a6 h6 a7 h7 a8 h8 hc x0 x1 x2 x3 x4 x5
      = k2_pay1 (k2_pay3 x5) (k2_pay4 x0 x1 x2 x3 x4) (k2_pay5 (F := F)) (k2_pay2 (F := F)) := by
  unfold out2_A_6
  rw [View.read_writes_eq_canon _ _ _ (cover2_A_6 c i a2 h2 a3 h3 a4 h4 a5 h5 a6 h6 a7 h7 a8 h8 hc x0 x1 x2 x3 x4 x5)]
  unfold kernelRun2_A
  dsimp only
  sl_unfold_words
  rw [View.canon_cons_unit_zero (S := S4x512) hz2, View.readCov_unit_zero (S := S4x512) _ hz2]
  simp only [View.readAt_eq_ld, h2.read_unread, h3.read_unread, h4.read_unread, h5.read_unread, h6.read_unread, h7.read_unread,
    View.ld_unit_zero (S := S4x512x256) hz3, View.ld_unit_zero (S := S4x512) hz2]

end Cases

variable (V : (c : Dev nD) → (b : Ref sig .tc) → Buf (Elt Ideal) ((c : Thread nD τ).loc b))

/-- The grid has 64 points; point `t` is (target tile, output tile) = (t / 8, t % 8). -/
theorem hN : cfg2.N = 64 := N_2
def ty (t : Fin cfg2.N) : Fin 8 := ⟨t.val / 8, by have := t.isLt; have := hN; omega⟩
def tx (t : Fin cfg2.N) : Fin 8 := ⟨t.val % 8, Nat.mod_lt _ (by norm_num)⟩

/-- The printed index maps, decided over the grid: the output-side windows sit at block t % 8, the target-side ones and the
    result at block t / 8. -/
theorem idx_facts : ∀ t : Fin cfg2.N,
    win2_0.index t (0 : Fin 3) = 0 ∧ win2_0.index t (1 : Fin 3) = t.val % 8 ∧ win2_0.index t (2 : Fin 3) = 0
    ∧ win2_1.index t (0 : Fin 3) = 0 ∧ win2_1.index t (1 : Fin 3) = t.val / 8 ∧ win2_1.index t (2 : Fin 3) = 0
    ∧ win2_2.index t (0 : Fin 2) = 0 ∧ win2_2.index t (1 : Fin 2) = t.val % 8
    ∧ win2_3.index t (0 : Fin 2) = 0 ∧ win2_3.index t (1 : Fin 2) = t.val / 8
    ∧ win2_4.index t (0 : Fin 2) = 0 ∧ win2_4.index t (1 : Fin 2) = t.val % 8
    ∧ win2_5.index t (0 : Fin 2) = 0 ∧ win2_5.index t (1 : Fin 2) = t.val % 8
    ∧ win2_6.index t (0 : Fin 2) = 0 ∧ win2_6.index t (1 : Fin 2) = t.val / 8 :=
  (by decide +kernel : ∀ t : Fin grid2.N, _)

/-- The blocks the point reads, entry by entry, in the arrays as the region finds them. -/
theorem blk0_apply (c : Dev nD) (t : Fin cfg2.N) (b : Fin 4) (p : Fin 512) (k : Fin 256) :
    (iblk2 V c 0 t : Vec Ideal S4x512x256 .bf16) (ix3 b p k) = V c main_v22 (ix3 b (CtxSim.tile (tx t) p) k) := by
  have e := idx_facts t
  unfold iblk2
  rw [View.read_apply]
  show V c main_v22 _ = V c main_v22 _
  refine congrArg (V c main_v22) (funext fun a => Fin.ext ?_)
  match a with
  | ⟨0, _⟩ => show win2_0.index t (0 : Fin 3) * 4 + 1 * b.val = b.val; omega
  | ⟨1, _⟩ => show win2_0.index t (1 : Fin 3) * 512 + 1 * p.val = 512 * (t.val % 8) + p.val; omega
  | ⟨2, _⟩ => show win2_0.index t (2 : Fin 3) * 256 + 1 * k.val = k.val; omega

theorem blk1_apply (c : Dev nD) (t : Fin cfg2.N) (b : Fin 4) (q : Fin 512) (k : Fin 256) :
    (iblk2 V c 1 t : Vec Ideal S4x512x256 .bf16) (ix3 b q k) = V c main_v23 (ix3 b (CtxSim.tile (ty t) q) k) := by
  have e := idx_facts t
  unfold iblk2
  rw [View.read_apply]
  show V c main_v23 _ = V c main_v23 _
  refine congrArg (V c main_v23) (funext fun a => Fin.ext ?_)
  match a with
  | ⟨0, _⟩ => show win2_1.index t (0 : Fin 3) * 4 + 1 * b.val = b.val; omega
  | ⟨1, _⟩ => show win2_1.index t (1 : Fin 3) * 512 + 1 * q.val = 512 * (t.val / 8) + q.val; omega
  | ⟨2, _⟩ => show win2_1.index t (2 : Fin 3) * 256 + 1 * k.val = k.val; omega

theorem blk2_apply (c : Dev nD) (t : Fin cfg2.N) (b : Fin 4) (p : Fin 512) :
    (iblk2 V c 2 t : Vec Ideal S4x512 .f32) (ix2 b p) = V c main_v10 (ix2 b (CtxSim.tile (tx t) p)) := by
  have e := idx_facts t
  unfold iblk2
  rw [View.read_apply]
  show V c main_v10 _ = V c main_v10 _
  refine congrArg (V c main_v10) (funext fun a => Fin.ext ?_)
  match a with
  | ⟨0, _⟩ => show win2_2.index t (0 : Fin 2) * 4 + 1 * b.val = b.val; omega
  | ⟨1, _⟩ => show win2_2.index t (1 : Fin 2) * 512 + 1 * p.val = 512 * (t.val % 8) + p.val; omega

theorem blk3_apply (c : Dev nD) (t : Fin cfg2.N) (b : Fin 4) (q : Fin 512) :
    (iblk2 V c 3 t : Vec Ideal S4x512 .f32) (ix2 b q) = V c main_v21 (ix2 b (CtxSim.tile (ty t) q)) := by
  have e := idx_facts t
  unfold iblk2
  rw [View.read_apply]
  show V c main_v21 _ = V c main_v21 _
  refine congrArg (V c main_v21) (funext fun a => Fin.ext ?_)
  match a with
  | ⟨0, _⟩ => show win2_3.index t (0 : Fin 2) * 4 + 1 * b.val = b.val; omega
  | ⟨1, _⟩ => show win2_3.index t (1 : Fin 2) * 512 + 1 * q.val = 512 * (t.val / 8) + q.val; omega

theorem blk4_apply (c : Dev nD) (t : Fin cfg2.N) (b : Fin 4) (p : Fin 512) :
    (iblk2 V c 4 t : Vec Ideal S4x512 .f32) (ix2 b p) = V c main_v24 (ix2 b (CtxSim.tile (tx t) p)) := by
  have e := idx_facts t
  unfold iblk2
  rw [View.read_apply]
  show V c main_v24 _ = V c main_v24 _
  refine congrArg (V c main_v24) (funext fun a => Fin.ext ?_)
  match a with
  | ⟨0, _⟩ => show win2_4.index t (0 : Fin 2) * 4 + 1 * b.val = b.val; omega
  | ⟨1, _⟩ => show win2_4.index t (1 : Fin 2) * 512 + 1 * p.val = 512 * (t.val % 8) + p.val; omega

theorem blk5_apply (c : Dev nD) (t : Fin cfg2.N) (b : Fin 4) (p : Fin 512) :
    (iblk2 V c 5 t : Vec Ideal S4x512 .f32) (ix2 b p) = V c main_v25 (ix2 b (CtxSim.tile (tx t) p)) := by
  have e := idx_facts t
  unfold iblk2
  rw [View.read_apply]
  show V c main_v25 _ = V c main_v25 _
  refine congrArg (V c main_v25) (funext fun a => Fin.ext ?_)
  match a with
  | ⟨0, _⟩ => show win2_5.index t (0 : Fin 2) * 4 + 1 * b.val = b.val; omega
  | ⟨1, _⟩ => show win2_5.index t (1 : Fin 2) * 512 + 1 * p.val = 512 * (t.val % 8) + p.val; omega

/-- The tile of normalised weights the point computes is the (i, j) tile of the full matrix of normalised weights. -/
theorem cblk_eq (c : Dev nD) (t : Fin cfg2.N) (b : Fin 4) (p q : Fin 512) :
    Ideal.div (wblk (iblk2 V c 0 t) (iblk2 V c 1 t) (iblk2 V c 2 t) (iblk2 V c 3 t) (iblk2 V c 4 t) b p q)
        ((iblk2 V c 5 t : Vec Ideal S4x512 .f32) (ix2 b p))
      = Ideal.div (CtxSim.wgt (V c main_v22) (V c main_v23) (V c main_v10) (V c main_v21) (V c main_v24) b
          (CtxSim.tile (tx t) p) (CtxSim.tile (ty t) q)) (V c main_v25 (ix2 b (CtxSim.tile (tx t) p))) := by
  unfold wblk CtxSim.wgt dblk CtxSim.dist CtxSim.inner
  rw [blk2_apply, blk3_apply, blk4_apply, blk5_apply]
  refine congrArg (fun s => Ideal.div (Ideal.exp (Ideal.div (CtxSim.one - Ideal.div (CtxSim.one - Ideal.div s _) _) CtxSim.one)) _)
    (Finset.sum_congr rfl fun k _ => ?_)
  rw [blk0_apply, blk1_apply]

/-- What the point stores, read from above, over a running block `xo`. -/
theorem step_le_iff (c : Dev nD) (t : Fin cfg2.N) (xo : Vec Ideal S4x512 .f32) (b : Fin 4) (q : Fin 512) (z : EReal) :
    k2_pay1 (F := Ideal) (k2_pay3 (F := Ideal) (iblk2 V c 5 t))
        (k2_pay4 (F := Ideal) (iblk2 V c 0 t) (iblk2 V c 1 t) (iblk2 V c 2 t) (iblk2 V c 3 t) (iblk2 V c 4 t)) (k2_pay5 (F := Ideal)) xo (ix2 b q) ≤ z
      ↔ xo (ix2 b q) ≤ z ∧ ∀ p : Fin 512,
          Ideal.div (CtxSim.wgt (V c main_v22) (V c main_v23) (V c main_v10) (V c main_v21) (V c main_v24) b
            (CtxSim.tile (tx t) p) (CtxSim.tile (ty t) q)) (V c main_v25 (ix2 b (CtxSim.tile (tx t) p))) ≤ z :=
  (pay2_le_iff _ _ _ _ _ _ xo b q z).trans (and_congr Iff.rfl (forall_congr' fun p => by rw [cblk_eq]))

/-- What the running block holds after point `n`, read from above. By induction on the point: a point with i = 0 starts
    from −∞, any other continues from what the point before left. -/
theorem inv (c : Dev nD) : ∀ (n : ℕ) (hn : n < cfg2.N) (b : Fin 4) (q : Fin 512) (z : EReal),
    outsAt2 V c n hn (ix2 b q) ≤ z ↔
      ∀ i : Fin 8, i.val ≤ n % 8 → ∀ p : Fin 512,
        Ideal.div (CtxSim.wgt (V c main_v22) (V c main_v23) (V c main_v10) (V c main_v21) (V c main_v24) b
          (CtxSim.tile i p) (CtxSim.tile (ty ⟨n, hn⟩) q)) (V c main_v25 (ix2 b (CtxSim.tile i p))) ≤ z := by
  intro n
  induction n using Nat.strong_induction_on with
  | _ n ih =>
    intro hn b q z
    have h64 := hN
    by_cases h0 : n % 8 = 0
    · rw [outsAt2_A V c ⟨n, hn⟩ h0, out_A, step_le_iff, pay2_init_apply]
      constructor
      · rintro ⟨-, h⟩ i hi p
        have hi' : i = tx ⟨n, hn⟩ := Fin.ext (by show i.val = n % 8; omega)
        rw [hi']; exact h p
      · intro h
        exact ⟨bot_le, fun p => h (tx ⟨n, hn⟩) (le_refl _) p⟩
    · have hn1 : n - 1 < cfg2.N := by omega
      rw [outsAt2_B V c ⟨n, hn⟩ h0, out_B, step_le_iff]
      show outsAt2 V c (n - 1) _ (ix2 b q) ≤ z ∧ _ ↔ _
      rw [ih (n - 1) (by omega) hn1 b q z]
      have hty : ty ⟨n - 1, hn1⟩ = ty ⟨n, hn⟩ := Fin.ext (by show (n - 1) / 8 = n / 8; omega)
      rw [hty]
      constructor
      · rintro ⟨h1, h2⟩ i hi p
        by_cases hin : i.val = n % 8
        · have hi' : i = tx ⟨n, hn⟩ := Fin.ext hin
          rw [hi']; exact h2 p
        · exact h1 i (by omega) p
      · intro h
        exact ⟨fun i hi p => h i (by omega) p, fun p => h (tx ⟨n, hn⟩) (le_refl _) p⟩

/-- The array of maxima over all outputs, from the arrays as the region finds them. -/
def G (c : Dev nD) : Buf (Elt Ideal) ((c : Thread nD τ).loc main_v26) :=
  fun i => CtxSim.cmax (V c main_v22) (V c main_v23) (V c main_v10) (V c main_v21) (V c main_v24) (V c main_v25) (i 0) (i 1)

/-- The write-backs happen after i = 7, and what is written back is the block of `G` under it. -/
theorem flushed_eq (c : Dev nD) (t : Fin cfg2.N) (hf : (cfg2.win 6).flush t = true) :
    (dat2 V c).flushed 6 t = ((cfg2.win 6).blk t).view.read (Elt Ideal) (G V c) := by
  have h7 : t.val % 8 = 7 := (flush2_6 t).mp hf
  have e := idx_facts t
  show (cfg2.win 6).cut (grid2.coords t) ((dat2 V c).after 6 t) = _
  rw [after2_6]
  funext y
  obtain ⟨b, q, rfl⟩ : ∃ (b : Fin 4) (q : Fin 512), y = ix2 b q := ⟨y 0, y 1, eq_ix2 y⟩
  rw [View.read_apply]
  have he : ((cfg2.win 6).blk t).view.emb (ix2 b q) = ix2 b (CtxSim.tile (ty t) q) := funext fun a => Fin.ext (by
    match a with
    | ⟨0, _⟩ => show win2_6.index t (0 : Fin 2) * 4 + 1 * b.val = b.val; omega
    | ⟨1, _⟩ => show win2_6.index t (1 : Fin 2) * 512 + 1 * q.val = 512 * (t.val / 8) + q.val; omega)
  rw [he]
  show outsAt2 V c t.val t.isLt (ix2 b q)
    = CtxSim.cmax (V c main_v22) (V c main_v23) (V c main_v10) (V c main_v21) (V c main_v24) (V c main_v25) b (CtxSim.tile (ty t) q)
  refine eq_of_forall_ge_iff fun z => ?_
  rw [inv V c t.val t.isLt b q z]
  unfold CtxSim.cmax
  rw [iSup_le_iff]
  constructor
  · intro h x
    rw [CtxSim.eq_tile x]
    exact h _ (by have := x.isLt; show x.val / 512 ≤ t.val % 8; omega) _
  · intro h i _ p
    exact h (CtxSim.tile i p)

/-- An index of the array is in point `t`'s block iff each coordinate is in the block's range on its axis. -/
theorem mem_blk (t : Fin cfg2.N) (i : S4x4096.Idx) :
    i ∈ ((cfg2.win 6).blk t).view.set ↔ ∀ a : Fin 2, win2_6.index t a * S4x512.size a ≤ (i a).val ∧ (i a).val < win2_6.index t a * S4x512.size a + S4x512.size a := by
  show i ∈ ((View.whole main_v26).slice (win2_6.rect t)).set ↔ _
  rw [View.set_slice_whole, Rect.mem_set_unit]
  exact Iff.rfl

/-- Every entry of the array lies in the block written back after the last tile of its column of tiles. -/
theorem final (c : Dev nD) : (dat2 V c).arrAt 6 cfg2.N = G V c :=
  (dat2 V c).arrAt_eq_of_cover 6 (G V c) (flushed_eq V c) fun i => by
    have h0 : (i 0).val < 4 := (i 0).isLt
    have h1 : (i 1).val < 4096 := (i 1).isLt
    have h64 := hN
    have ht : 8 * ((i 1).val / 512) + 7 < cfg2.N := by omega
    have e := idx_facts ⟨8 * ((i 1).val / 512) + 7, ht⟩
    refine ⟨⟨8 * ((i 1).val / 512) + 7, ht⟩, (flush2_6 _).mpr (by show (8 * ((i 1).val / 512) + 7) % 8 = 7; omega), ?_⟩
    rw [mem_blk]
    intro a
    match a with
    | ⟨0, _⟩ =>
      show win2_6.index ⟨8 * ((i 1).val / 512) + 7, ht⟩ (0 : Fin 2) * 4 ≤ (i 0).val ∧ (i 0).val < win2_6.index ⟨8 * ((i 1).val / 512) + 7, ht⟩ (0 : Fin 2) * 4 + 4
      omega
    | ⟨1, _⟩ =>
      show win2_6.index ⟨8 * ((i 1).val / 512) + 7, ht⟩ (1 : Fin 2) * 512 ≤ (i 1).val ∧ (i 1).val < win2_6.index ⟨8 * ((i 1).val / 512) + 7, ht⟩ (1 : Fin 2) * 512 + 512
      have e1' : win2_6.index ⟨8 * ((i 1).val / 512) + 7, ht⟩ (1 : Fin 2) = (i 1).val / 512 := by
        rw [e.2.2.2.2.2.2.2.2.2.2.2.2.2.2.2]; show (8 * ((i 1).val / 512) + 7) / 8 = _; omega
      omega

end Cert.KernelIdeal.Sweep2

end
-- ==== Proof.Compose.lean ====
/-
  The three sweeps in sequence. Each region is entered at the contents the one before leaves: the arrays a region only
  reads (features, norms, and for the later sweeps the minima and the sums) leave it as they entered, and its result
  array leaves it holding the sweep's function of them. So the array of maxima after the third region is `cmaxArr` of
  the features and norms the host operations before the first region computed: the second sweep finds the first's
  minima, the third finds both.
-/
import proofs.«157142_j19567871001233_1_alg».proof.Proof.Sweep0
import proofs.«157142_j19567871001233_1_alg».proof.Proof.Sweep1
import proofs.«157142_j19567871001233_1_alg».proof.Proof.Sweep2

noncomputable section

namespace Cert.KernelIdeal.Compose

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-! ## The first region: inputs kept, the minima written -/

theorem V2_v22 : V2 m ρ c main_v22 = V1 m ρ c main_v22 := (W2_arr m ρ c 0).trans ((dat0 (V1 m ρ) c).arrAt_in 0 rfl _)
theorem V2_v23 : V2 m ρ c main_v23 = V1 m ρ c main_v23 := (W2_arr m ρ c 1).trans ((dat0 (V1 m ρ) c).arrAt_in 1 rfl _)
theorem V2_v10 : V2 m ρ c main_v10 = V1 m ρ c main_v10 := (W2_arr m ρ c 2).trans ((dat0 (V1 m ρ) c).arrAt_in 2 rfl _)
theorem V2_v21 : V2 m ρ c main_v21 = V1 m ρ c main_v21 := (W2_arr m ρ c 3).trans ((dat0 (V1 m ρ) c).arrAt_in 3 rfl _)
theorem V2_v24 : V2 m ρ c main_v24
    = CtxSim.dminArr (V1 m ρ c main_v22) (V1 m ρ c main_v23) (V1 m ρ c main_v10) (V1 m ρ c main_v21) :=
  (W2_arr m ρ c 4).trans (Sweep0.final (V1 m ρ) c)

/-! ## The second region: inputs and minima kept, the sums written -/

theorem V3_v22 : V3 m ρ c main_v22 = V1 m ρ c main_v22 :=
  ((W3_arr m ρ c 0).trans ((dat1 (V2 m ρ) c).arrAt_in 0 rfl _)).trans (V2_v22 m ρ c)
theorem V3_v23 : V3 m ρ c main_v23 = V1 m ρ c main_v23 :=
  ((W3_arr m ρ c 1).trans ((dat1 (V2 m ρ) c).arrAt_in 1 rfl _)).trans (V2_v23 m ρ c)
theorem V3_v10 : V3 m ρ c main_v10 = V1 m ρ c main_v10 :=
  ((W3_arr m ρ c 2).trans ((dat1 (V2 m ρ) c).arrAt_in 2 rfl _)).trans (V2_v10 m ρ c)
theorem V3_v21 : V3 m ρ c main_v21 = V1 m ρ c main_v21 :=
  ((W3_arr m ρ c 3).trans ((dat1 (V2 m ρ) c).arrAt_in 3 rfl _)).trans (V2_v21 m ρ c)
theorem V3_v24 : V3 m ρ c main_v24
    = CtxSim.dminArr (V1 m ρ c main_v22) (V1 m ρ c main_v23) (V1 m ρ c main_v10) (V1 m ρ c main_v21) :=
  ((W3_arr m ρ c 4).trans ((dat1 (V2 m ρ) c).arrAt_in 4 rfl _)).trans (V2_v24 m ρ c)
theorem V3_v25 : V3 m ρ c main_v25
    = CtxSim.wsumArr (V1 m ρ c main_v22) (V1 m ρ c main_v23) (V1 m ρ c main_v10) (V1 m ρ c main_v21) := by
  refine ((W3_arr m ρ c 5).trans (Sweep1.final (V2 m ρ) c)).trans ?_
  unfold Sweep1.G CtxSim.wsumArr
  rw [V2_v22, V2_v23, V2_v10, V2_v21, V2_v24]
  rfl

/-! ## The third region: the maxima -/

theorem V4_v26 : V4 m ρ c main_v26
    = CtxSim.cmaxArr (V1 m ρ c main_v22) (V1 m ρ c main_v23) (V1 m ρ c main_v10) (V1 m ρ c main_v21) := by
  refine ((W4_arr m ρ c 6).trans (Sweep2.final (V3 m ρ) c)).trans ?_
  unfold Sweep2.G CtxSim.cmaxArr
  rw [V3_v22, V3_v23, V3_v10, V3_v21, V3_v24, V3_v25]
  rfl

end Cert.KernelIdeal.Compose

end
-- ==== Proof.KernelHostArgs.lean ====
/-
  The four arguments of the program keep their launch contents up to the third region's exit: no host operation
  before the first region writes an argument, and an argument is no window array of any of the three regions, so
  each region leaves it as it was entered.
-/
import proofs.«157142_j19567871001233_1_alg».proof.Proof.Gen.KernelIdeal.Frame
import Idealize.ShloMosaic.Lib.StableHlo.Run

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg)

/-- The reference buffers the host operations before the first region write. -/
def written0 : List (Ref sig .tc) :=
  [main_v0, main_v1, main_cst, main_v2, main_v3, main_cst_0, main_v4, main_v5, main_v6, main_v7, main_v8, main_cst_1, main_v9, main_v10,
   main_v11, main_v12, main_cst_2, main_v13, main_v14, main_cst_3, main_v15, main_v16, main_v17, main_v18, main_v19, main_cst_4, main_v20,
   main_v21, main_v22, main_v23]

/-- A buffer that no host operation before the first region writes holds its launch contents at the first region's
    entry. -/
theorem W1_main_arg (c : Dev nD) (r : Ref sig .tc) (hr : r ∉ written0) :
    W1 m ρ c (Proc.devRef .tc r) = m ((c : Thread nD τ).loc r) :=
  (StableHlo.after_of_writes_sub (W := written0) hostOps0 (W0 m ρ c) (by
      simp only [hostOps0, written0, List.Forall, StableHlo.nullary_writes, StableHlo.unary_writes, StableHlo.binary_writes,
        StableHlo.reshape_writes, List.map_cons, List.map_nil, List.toFinset_cons, List.toFinset_nil,
        Finset.singleton_subset_iff, Finset.mem_insert, Finset.mem_singleton, true_or, or_true, and_self]) hr).trans rfl

/-- Argument 0's buffer at the third region's exit holds its launch contents. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = m ((c : Thread nD τ).loc main_arg0) := W1_main_arg m ρ c main_arg0 (by decide)

/-- Argument 1's buffer at the third region's exit holds its launch contents. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_main_arg m ρ c main_arg1 (by decide)

/-- Argument 2's buffer at the third region's exit holds its launch contents. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_main_arg m ρ c main_arg2 (by decide)

/-- Argument 3's buffer at the third region's exit holds its launch contents. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_main_arg m ρ c main_arg3 (by decide)

end Cert.KernelIdeal.HostValue

end
-- ==== Proof.KernelHostTail.lean ====
/-
  The host operations after the third region, read as ONE function `tail` of the four arguments and of the
  region's output array, and that function as the loss of Spec.lean.

  The tail computes, over scalars, `1 · mse(a0, a1) − 1 · log (mean of the output) + 0.02 · mse(a2, a3)`, where a mean
  is a host sum from the zero word divided by the word of the element count. At the extended reals a host sum to a
  scalar is the initial value plus the sum over every index of the operand, and every other operation of the tail is
  pointwise: so `tail` at the one scalar index is `CtxSim.lossOf` of the arguments at `CtxSim.cs` of the output,
  term for term — nothing is evaluated, no word is read.
-/
import proofs.«157142_j19567871001233_1_alg».proof.Proof.Gen.KernelIdeal.Frame
import proofs.«157142_j19567871001233_1_alg».proof.Proof.Spec
import Idealize.ShloMosaic.PureOps.Ideal.Laws
import Idealize.ShloMosaic.Lib.StableHlo.Run

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The host operations after the third region, as one function of the four arguments and the region's output. -/
def tail (a0 a1 : (⟨S4x3x256x256, .f32⟩ : BufTy).Contents (Elt Ideal)) (a2 a3 : (⟨S4x256x64x64, .f32⟩ : BufTy).Contents (Elt Ideal))
    (v26 : (⟨S4x4096, .f32⟩ : BufTy).Contents (Elt Ideal)) : (⟨S_, .f32⟩ : BufTy).Contents (Elt Ideal) :=
  addf
    (subf
      (mulf (constant (F := Ideal) S_ .f32 0x3F800000#32)
        (Host.divf (F := Ideal) (Host.reduceAdd (F := Ideal) (mulf (subf a0 a1) (subf a0 a1)) (constant (F := Ideal) S_ .f32 0x00000000#32) reducesTo_S4x3x256x256_S_d0_1_2_3 h_S_) (constant (F := Ideal) S_ .f32 0x49400000#32)))
      (mulf (constant (F := Ideal) S_ .f32 0x3F800000#32)
        (Host.log (F := Ideal) (Host.divf (F := Ideal) (Host.reduceAdd (F := Ideal) v26 (constant (F := Ideal) S_ .f32 0x00000000#32) reducesTo_S4x4096_S_d0_1 h_S_) (constant (F := Ideal) S_ .f32 0x46800000#32)))))
    (mulf (constant (F := Ideal) S_ .f32 0x3CA3D70A#32)
      (Host.divf (F := Ideal) (Host.reduceAdd (F := Ideal) (mulf (subf a2 a3) (subf a2 a3)) (constant (F := Ideal) S_ .f32 0x00000000#32) reducesTo_S4x256x64x64_S_d0_1_2_3 h_S_) (constant (F := Ideal) S_ .f32 0x4A800000#32)))

/-- A host sum to a scalar from a constant initial value: the constant's word plus the sum of every element. -/
theorem reduceAdd_scalar {s : Shape} {axes : List (Fin s.rank)} (x : FVec Ideal s .f32) (b : BitVec FTy.f32.bits)
    (h : s.ReducesTo axes S_) :
    Host.reduceAdd (F := Ideal) x (constant (F := Ideal) S_ .f32 b) h h_S_
      = fun _ => Ideal.ofBits .f32 b + ∑ j : s.Idx, x j := by
  funext i
  simp only [Host.reduceAdd, Ideal.hostReduceAdd_def]
  exact Ideal.hostReduceAdd_total h (fun b => b.elim0) x _ i

/-- The tail is the loss of the four arguments at the mean of the region's output. -/
theorem tail_eq (a0 a1 : (⟨S4x3x256x256, .f32⟩ : BufTy).Contents (Elt Ideal)) (a2 a3 : (⟨S4x256x64x64, .f32⟩ : BufTy).Contents (Elt Ideal))
    (v26 : (⟨S4x4096, .f32⟩ : BufTy).Contents (Elt Ideal)) :
    tail a0 a1 a2 a3 v26 = fun _ => CtxSim.lossOf a0 a1 a2 a3 (CtxSim.cs v26) := by
  unfold tail
  rw [reduceAdd_scalar, reduceAdd_scalar, reduceAdd_scalar]
  rfl

set_option maxHeartbeats 1000000 in
/-- The last boundary's contents at the result buffer: the tail of the third region's exit contents. -/
theorem W5_tail (c : Dev nD) :
    W5 m ρ c (Proc.devRef .tc main_v42)
      = tail (W4 m ρ c (Proc.devRef .tc main_arg0)) (W4 m ρ c (Proc.devRef .tc main_arg1)) (W4 m ρ c (Proc.devRef .tc main_arg2))
          (W4 m ρ c (Proc.devRef .tc main_arg3)) (W4 m ρ c (Proc.devRef .tc main_v26)) := by
  simp only [W5, hostOps3]
  after_results_simp
  rfl

end Cert.KernelIdeal.HostValue

end
-- ==== Proof.KernelHostFeat.lean ====
/-
  (a) The four arrays the three regions read, at the first region's entry, as the reference's stages of the same
  launch arguments.

  Both programs apply the same host operations to an argument: the reshape to [4, 256, 4096], the transpose to
  [4, 4096, 256], the mean over the 4096 positions (a sum from the zero word divided by the word of 4096) subtracted —
  the centred features —, and the square root of the sum of squares over the 256 channels — their norms. The program
  then rounds the centred features to bf16, which at the extended reals is the identity; the reference computes the
  norm inside a called function whose operations stand in the call's place. So each array is the reference's stage,
  operation for operation: once the entry contents are read back through the host operations the two sides are one
  term.
-/
import proofs.«157142_j19567871001233_1_alg».proof.Proof.Gen.KernelIdeal.Frame
import proofs.«157142_j19567871001233_1_alg».proof.Proof.Gen.ReferenceIdeal.Read
import Idealize.ShloMosaic.PureOps.Ideal.Laws
import Idealize.ShloMosaic.Lib.StableHlo.Run

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The centred output features the regions read (rounded to bf16: the identity here) are the reference's. -/
theorem V1_main_v22 (c : Dev nD) :
    V1 m ρ c main_v22 = Cert.ReferenceIdeal.Read.val_main_v14 (F := Ideal) (m ((c : Thread nD τ).loc main_arg2)) := by
  simp only [V1, W1, hostOps0]
  after_results_simp
  rfl

/-- The centred target features the regions read (rounded to bf16: the identity here) are the reference's. -/
theorem V1_main_v23 (c : Dev nD) :
    V1 m ρ c main_v23 = Cert.ReferenceIdeal.Read.val_main_v20 (F := Ideal) (m ((c : Thread nD τ).loc main_arg3)) := by
  simp only [V1, W1, hostOps0]
  after_results_simp
  rfl

/-- The norms of the centred output features are the reference's (its called function's operations in the call's place). -/
theorem V1_main_v10 (c : Dev nD) :
    V1 m ρ c main_v10 = Cert.ReferenceIdeal.Read.val_main_v21 (F := Ideal) (m ((c : Thread nD τ).loc main_arg2)) := by
  simp only [V1, W1, hostOps0]
  after_results_simp
  rfl

/-- The norms of the centred target features are the reference's (its called function's operations in the call's place). -/
theorem V1_main_v21 (c : Dev nD) :
    V1 m ρ c main_v21 = Cert.ReferenceIdeal.Read.val_main_v22 (F := Ideal) (m ((c : Thread nD τ).loc main_arg3)) := by
  simp only [V1, W1, hostOps0]
  after_results_simp
  rfl

end Cert.KernelIdeal.HostValue

end
-- ==== Proof.KernelHost.lean ====
/-
  The program's host operations, read off the generated frame's boundary contents at the extended reals.

  (a) The four arrays the regions read are the reference's stages of the same arguments: the imported module
  KernelHostFeat (`V1_main_v22`, `V1_main_v23`, `V1_main_v10`, `V1_main_v21`).

  (b) The result. The last boundary's contents at the result buffer are the host operations after the third region
  applied to the third region's exit contents; the four arguments are there as launched (no host operation and no
  region writes an argument), and the only other buffer those operations read is the third region's output. So the
  result is the loss of Spec.lean at the launch arguments and at the one-step mean of that output.
-/
import proofs.«157142_j19567871001233_1_alg».proof.Proof.KernelHostArgs
import proofs.«157142_j19567871001233_1_alg».proof.Proof.KernelHostTail
import proofs.«157142_j19567871001233_1_alg».proof.Proof.KernelHostFeat

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer at the end of the run: the loss of the four launch arguments at the mean, over all 4·4096
    entries, of the third region's output array. -/
theorem W5_main_v42 (c : Dev nD) :
    W5 m ρ c (Proc.devRef .tc main_v42)
      = fun _ => CtxSim.lossOf (m ((c : Thread nD τ).loc main_arg0)) (m ((c : Thread nD τ).loc main_arg1))
          (m ((c : Thread nD τ).loc main_arg2)) (m ((c : Thread nD τ).loc main_arg3))
          (CtxSim.cs (W4 m ρ c (Proc.devRef .tc main_v26))) := by
  rw [W5_tail, W4_main_arg0, W4_main_arg1, W4_main_arg2, W4_main_arg3]
  exact tail_eq _ _ _ _ _

end Cert.KernelIdeal.HostValue

end
-- ==== Proof.RefSweepsDist.lean ====
/-
  The reference's cosine distance, read at an index.

  The reference contracts the centred features over the channel axis (a `dot_general`), divides by the product of the
  two row norms plus ε₁, and subtracts the quotient from one.  At the index `(b, x, y)` this is `CtxSim.dist` of the
  stages that hold the centred features and the norms.
-/
import proofs.«157142_j19567871001233_1_alg».proof.Proof.Gen.ReferenceIdeal.Read
import proofs.«157142_j19567871001233_1_alg».proof.Proof.Spec
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- A [4, 256, 64, 64] array of extended reals: the type of the two feature arguments. -/
abbrev Arg := (⟨S4x256x64x64, .f32⟩ : BufTy).Contents (Elt Ideal)

/-- The contraction at `(b, x, y)` is the inner product of row `x` of the centred output features with row `y` of the
    centred target features. -/
theorem v23_ix (x2 x3 : Arg) (b : Fin 4) (x y : Fin 4096) :
    val_main_v23 (F := Ideal) x2 x3 (ix3 b x y)
      = CtxSim.inner (val_main_v14 (F := Ideal) x2) (val_main_v20 (F := Ideal) x3) b x y := by
  rw [val_main_v23_apply]
  unfold CtxSim.inner
  refine Finset.sum_congr rfl fun k _ => ?_
  have el : lidx_main_v23 (ix3 b x y) k = ix3 b x k :=
    funext fun a => Fin.ext (by match a with | ⟨0, _⟩ => rfl | ⟨1, _⟩ => rfl | ⟨2, _⟩ => rfl)
  have er : ridx_main_v23 (ix3 b x y) k = ix3 b y k :=
    funext fun a => Fin.ext (by match a with | ⟨0, _⟩ => rfl | ⟨1, _⟩ => rfl | ⟨2, _⟩ => rfl)
  rw [el, er]

/-- The distance stage at `(b, x, y)`: one minus the inner product over the product of the norms plus ε₁. -/
theorem v33_ix (x2 x3 : Arg) (b : Fin 4) (x y : Fin 4096) :
    val_main_v33 (F := Ideal) x2 x3 (ix3 b x y)
      = CtxSim.dist (val_main_v14 (F := Ideal) x2) (val_main_v20 (F := Ideal) x3)
          (val_main_v21 (F := Ideal) x2) (val_main_v22 (F := Ideal) x3) b x y := by
  have e1 : idx_main_v24 (idx_main_v26 (ix3 b x y)) = ix2 b x :=
    funext fun a => Fin.ext (by match a with | ⟨0, _⟩ => rfl | ⟨1, _⟩ => rfl)
  have e2 : idx_main_v25 (idx_main_v27 (ix3 b x y)) = ix2 b y :=
    funext fun a => Fin.ext (by match a with | ⟨0, _⟩ => rfl | ⟨1, _⟩ => rfl)
  rw [val_main_v33_apply, val_main_v32_apply, val_main_cst_7_apply, val_main_v31_apply, v23_ix, val_main_v30_apply,
    val_main_v28_apply, val_main_v26_apply, val_main_v24_apply, e1, val_main_v27_apply, val_main_v25_apply, e2,
    val_main_v29_apply, val_main_cst_6_apply]
  rfl

end Cert.ReferenceIdeal.RefValue

end
-- ==== Proof.RefSweepsFold.lean ====
/-
  The two order reductions of the reference, read at an index.

  A `stablehlo.reduce` with a minimum body over the last axis of a [4, 4096, 4096] array, started from the +∞ word, is at
  `(b, x)` the infimum over `y` of the operand at `(b, x, y)`; with a maximum body over the middle axis, started from
  the −∞ word, it is at `(b, y)` the supremum over `x` of the operand at `(b, x, y)`.  Both are commutative and associative
  folds, so the row-major order in which the host takes the elements does not matter, and a fold of `min` from `⊤`
  (of `max` from `⊥`) over a whole finite type is the infimum (supremum) by the universal property of each.
-/
import proofs.«157142_j19567871001233_1_alg».proof.Proof.Gen.ReferenceIdeal.Read
import proofs.«157142_j19567871001233_1_alg».proof.Proof.Spec
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The word of +∞ denotes the top element. -/
theorem ofBits_pinf : Ideal.ofBits .f32 0x7F800000#32 = ⊤ := by simp [Ideal.ofBits, Ideal.ieee]

/-- The word of −∞ denotes the bottom element. -/
theorem ofBits_ninf : Ideal.ofBits .f32 0xFF800000#32 = ⊥ := by simp [Ideal.ofBits, Ideal.ieee]

/-- A fold of `min` from the top element over all of `Fin 4096` is the infimum. -/
theorem fold_min_top (f : Fin 4096 → EReal) : (Finset.univ : Finset (Fin 4096)).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-- A fold of `max` from the bottom element over all of `Fin 4096` is the supremum. -/
theorem fold_max_bot (f : Fin 4096 → EReal) : (Finset.univ : Finset (Fin 4096)).fold max ⊥ f = ⨆ k, f k := by
  apply le_antisymm
  · exact (Finset.fold_max_le _).2 ⟨bot_le, fun k _ => le_iSup f k⟩
  · exact iSup_le fun k => (Finset.le_fold_max _).2 (Or.inr ⟨k, Finset.mem_univ k, le_rfl⟩)

/-- The minimum over the last axis, from the +∞ word, at `(b, x)`. -/
theorem reduce_min_last (v : S4x4096x4096.Idx → EReal) (b : Fin 4) (x : Fin 4096) :
    Host.reduce (FloatOps.minimumf (F := Ideal) (φ := .f32)) v (val_main_cst_8 (F := Ideal))
        reducesTo_S4x4096x4096_S4x4096_d2 h_S_ (ix2 b x)
      = ⨅ y : Fin 4096, v (ix3 b x y) := by
  have h : S4x4096x4096.Reduces [2] S4x4096 := by decide
  have hl : ∀ k : Fin 4096, h.lift (ix2 b x) k = ix3 b x k := fun k =>
    funext fun a => Fin.ext (by match a with | ⟨0, _⟩ => rfl | ⟨1, _⟩ => rfl | ⟨2, _⟩ => rfl)
  have key : (Finset.univ : Finset (Fin 4096)).fold min (Ideal.ofBits .f32 0x7F800000#32)
      (fun k => v (h.lift (ix2 b x) k)) = ⨅ y : Fin 4096, v (ix3 b x y) :=
    (Finset.fold_congr fun k _ => congrArg v (hl k)).trans
      ((congrArg (fun t => (Finset.univ : Finset (Fin 4096)).fold min t fun k => v (ix3 b x k)) ofBits_pinf).trans
        (fold_min_top _))
  rw [Host.reduce_eq_fold_single _ v _ reducesTo_S4x4096x4096_S4x4096_d2 h h_S_ (ix2 b x), val_main_cst_8_apply]
  exact key

/-- The maximum over the middle axis, from the −∞ word, at `(b, y)`. -/
theorem reduce_max_mid (v : S4x4096x4096.Idx → EReal) (b : Fin 4) (y : Fin 4096) :
    Host.reduce (FloatOps.maximumf (F := Ideal) (φ := .f32)) v (val_main_cst_13 (F := Ideal))
        reducesTo_S4x4096x4096_S4x4096_d1 h_S_ (ix2 b y)
      = ⨆ x : Fin 4096, v (ix3 b x y) := by
  have h : S4x4096x4096.Reduces [1] S4x4096 := by decide
  have hl : ∀ k : Fin 4096, h.lift (ix2 b y) k = ix3 b k y := fun k =>
    funext fun a => Fin.ext (by match a with | ⟨0, _⟩ => rfl | ⟨1, _⟩ => rfl | ⟨2, _⟩ => rfl)
  have key : (Finset.univ : Finset (Fin 4096)).fold max (Ideal.ofBits .f32 0xFF800000#32)
      (fun k => v (h.lift (ix2 b y) k)) = ⨆ x : Fin 4096, v (ix3 b x y) :=
    (Finset.fold_congr fun k _ => congrArg v (hl k)).trans
      ((congrArg (fun t => (Finset.univ : Finset (Fin 4096)).fold max t fun k => v (ix3 b k y)) ofBits_ninf).trans
        (fold_max_bot _))
  rw [Host.reduce_eq_fold_single _ v _ reducesTo_S4x4096x4096_S4x4096_d1 h h_S_ (ix2 b y), val_main_cst_13_apply]
  exact key

end Cert.ReferenceIdeal.RefValue

end
-- ==== Proof.RefSweeps.lean ====
/-
  The reference's three sweeps over the targets and the sources, read at an index, and the array they end in.

  With the distance `d(b, x, y)` of the stage before:
    the minimum over `y` of `d`                                        (the reduce by minimum, from +∞),
    the weight `exp ((1 − d / (min + ε₂)) / 1)`                          (pointwise, the minimum broadcast along `y`),
    the sum over `y` of the weights                                      (the float sum, from the zero word),
    the weight over that sum                                              (pointwise, the sum broadcast along `y`),
    the maximum over `x` of the quotient                                 (the reduce by maximum, from −∞).
  Each is the specification's function of the same name at the coordinates; put together, the last stage is
  `CtxSim.cmaxArr` of the centred features and the norms.
-/
import proofs.«157142_j19567871001233_1_alg».proof.Proof.RefSweepsDist
import proofs.«157142_j19567871001233_1_alg».proof.Proof.RefSweepsFold

noncomputable section

namespace Cert.ReferenceIdeal.RefValue

open Cert.ReferenceIdeal Cert.ReferenceIdeal.Gen Cert.ReferenceIdeal.Read Idealize.ShloMosaic Idealize.ShloMosaic.ValueIdx

/-- The minimum stage at `(b, x)`: the least distance from source `x` to a target. -/
theorem v34_ix (x2 x3 : Arg) (b : Fin 4) (x : Fin 4096) :
    val_main_v34 (F := Ideal) x2 x3 (ix2 b x)
      = CtxSim.dmin (val_main_v14 (F := Ideal) x2) (val_main_v20 (F := Ideal) x3)
          (val_main_v21 (F := Ideal) x2) (val_main_v22 (F := Ideal) x3) b x := by
  unfold val_main_v34 CtxSim.dmin
  refine (reduce_min_last _ b x).trans ?_
  exact iInf_congr fun y => v33_ix x2 x3 b x y

/-- The weight stage at `(b, x, y)`, over the minimum stage as the array of minima. -/
theorem v44_ix (x2 x3 : Arg) (b : Fin 4) (x y : Fin 4096) :
    val_main_v44 (F := Ideal) x2 x3 (ix3 b x y)
      = CtxSim.wgt (val_main_v14 (F := Ideal) x2) (val_main_v20 (F := Ideal) x3)
          (val_main_v21 (F := Ideal) x2) (val_main_v22 (F := Ideal) x3) (val_main_v34 (F := Ideal) x2 x3) b x y := by
  have e1 : idx_main_v35 (idx_main_v38 (ix3 b x y)) = ix2 b x :=
    funext fun a => Fin.ext (by match a with | ⟨0, _⟩ => rfl | ⟨1, _⟩ => rfl)
  rw [val_main_v44_apply, val_main_v43_apply, val_main_v42_apply, val_main_cst_11_apply, val_main_v41_apply,
    val_main_v40_apply, val_main_cst_10_apply, val_main_v39_apply, v33_ix, val_main_v38_apply, val_main_v37_apply,
    val_main_v35_apply, e1, val_main_v36_apply, val_main_cst_9_apply]
  rfl

/-- The sum stage at `(b, x)`: the zero word contributes nothing, and the sum runs over the targets. -/
theorem v45_ix (x2 x3 : Arg) (b : Fin 4) (x : Fin 4096) :
    val_main_v45 (F := Ideal) x2 x3 (ix2 b x)
      = CtxSim.wsum (val_main_v14 (F := Ideal) x2) (val_main_v20 (F := Ideal) x3)
          (val_main_v21 (F := Ideal) x2) (val_main_v22 (F := Ideal) x3) (val_main_v34 (F := Ideal) x2 x3) b x := by
  rw [val_main_v45_apply, val_main_cst_12_apply, Ideal.ofBits_def, Ideal.ofBits_zero_f32, zero_add]
  unfold CtxSim.wsum
  refine Finset.sum_congr rfl fun k _ => ?_
  have e : idx_main_v45 (ix2 b x) k = ix3 b x k :=
    funext fun a => Fin.ext (by match a with | ⟨0, _⟩ => rfl | ⟨1, _⟩ => rfl | ⟨2, _⟩ => rfl)
  rw [e, v44_ix]

/-- The normalised weight at `(b, x, y)`: the weight over the sum stage at `(b, x)`. -/
theorem v48_ix (x2 x3 : Arg) (b : Fin 4) (x y : Fin 4096) :
    val_main_v48 (F := Ideal) x2 x3 (ix3 b x y)
      = Ideal.div (CtxSim.wgt (val_main_v14 (F := Ideal) x2) (val_main_v20 (F := Ideal) x3)
          (val_main_v21 (F := Ideal) x2) (val_main_v22 (F := Ideal) x3) (val_main_v34 (F := Ideal) x2 x3) b x y)
          (val_main_v45 (F := Ideal) x2 x3 (ix2 b x)) := by
  have e : idx_main_v46 (idx_main_v47 (ix3 b x y)) = ix2 b x :=
    funext fun a => Fin.ext (by match a with | ⟨0, _⟩ => rfl | ⟨1, _⟩ => rfl)
  rw [val_main_v48_apply, v44_ix, val_main_v47_apply, val_main_v46_apply, e]
  rfl

/-- The maximum stage at `(b, y)`: the best normalised weight target `y` receives. -/
theorem v49_ix (x2 x3 : Arg) (b : Fin 4) (y : Fin 4096) :
    val_main_v49 (F := Ideal) x2 x3 (ix2 b y)
      = CtxSim.cmax (val_main_v14 (F := Ideal) x2) (val_main_v20 (F := Ideal) x3)
          (val_main_v21 (F := Ideal) x2) (val_main_v22 (F := Ideal) x3) (val_main_v34 (F := Ideal) x2 x3)
          (val_main_v45 (F := Ideal) x2 x3) b y := by
  unfold val_main_v49 CtxSim.cmax
  refine (reduce_max_mid _ b y).trans ?_
  exact iSup_congr fun x => v48_ix x2 x3 b x y

/-- The minimum stage is the specification's array of minima. -/
theorem v34_eq (x2 x3 : Arg) :
    val_main_v34 (F := Ideal) x2 x3
      = CtxSim.dminArr (val_main_v14 (F := Ideal) x2) (val_main_v20 (F := Ideal) x3)
          (val_main_v21 (F := Ideal) x2) (val_main_v22 (F := Ideal) x3) := by
  funext i
  obtain ⟨b, x, rfl⟩ : ∃ (b : Fin 4) (x : Fin 4096), i = ix2 b x := ⟨i 0, i 1, eq_ix2 i⟩
  rw [v34_ix, CtxSim.dminArr_ix]

/-- The sum stage is the specification's array of sums. -/
theorem v45_eq (x2 x3 : Arg) :
    val_main_v45 (F := Ideal) x2 x3
      = CtxSim.wsumArr (val_main_v14 (F := Ideal) x2) (val_main_v20 (F := Ideal) x3)
          (val_main_v21 (F := Ideal) x2) (val_main_v22 (F := Ideal) x3) := by
  funext i
  obtain ⟨b, x, rfl⟩ : ∃ (b : Fin 4) (x : Fin 4096), i = ix2 b x := ⟨i 0, i 1, eq_ix2 i⟩
  rw [v45_ix, v34_eq, CtxSim.wsumArr_ix]

/-- The reference's array of best normalised weights is the specification's, of the centred features and the norms. -/
theorem ref_cmax (x2 x3 : Arg) :
    val_main_v49 (F := Ideal) x2 x3
      = CtxSim.cmaxArr (val_main_v14 (F := Ideal) x2) (val_main_v20 (F := Ideal) x3)
          (val_main_v21 (F := Ideal) x2) (val_main_v22 (F := Ideal) x3) := by
  funext i
  obtain ⟨b, y, rfl⟩ : ∃ (b : Fin 4) (y : Fin 4096), i = ix2 b y := ⟨i 0, i 1, eq_ix2 i⟩
  rw [v49_ix, v34_eq, v45_eq, CtxSim.cmaxArr_ix]

end Cert.ReferenceIdeal.RefValue

end
-- ==== Proof.RefLoss.lean ====
/-
  The tail of the reference, read at its one index: the loss around the similarity.

  After the array of best normalised weights the reference takes, per batch, the mean over the 4096 targets (a float sum
  from the zero word divided by the word of 4096), then the mean over the four batches (the same with the word of 4),
  the logarithm of that, and combines it with the two mean squared errors:
      1 · mse(arg0, arg1) − 1 · log CS + 0.02 · mse(arg2, arg3).
  A float sum into the scalar is the initial word plus the sum over every index of the operand; a float sum over one
  axis is the initial word plus the sum over that axis's coordinate.  The only re-indexing is of the sum over the rank-1
  index of the batch by its coordinate.  No word is evaluated: the same words stand on both sides.
-/
import proofs.«157142_j19567871001233_1_alg».proof.Proof.Gen.ReferenceIdeal.Read
import proofs.«157142_j19567871001233_1_alg».proof.Proof.Spec
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- A rank-1 index of extent four is its coordinate … -/
def batchEquiv : S4.Idx ≃ Fin 4 where
  toFun i := i 0
  invFun b := ix1 b
  left_inv i := (eq_ix1 i).symm
  right_inv _ := rfl

/-- … so a sum over the batch index is the sum over the four batches. -/
theorem sum_batch (f : S4.Idx → EReal) : ∑ j : S4.Idx, f j = ∑ b : Fin 4, f (ix1 b) :=
  (Equiv.sum_comp batchEquiv.symm f).symm

/-- The first mean squared error: the sum of the squared differences of the two images from the zero word, over the
    word of their 786432 entries. -/
theorem v3_eq (x0 x1 : (⟨S4x3x256x256, .f32⟩ : BufTy).Contents (Elt Ideal)) (i : S_.Idx) :
    val_main_v3 (F := Ideal) x0 x1 i = CtxSim.mse x0 x1 (Ideal.ofBits .f32 0x49400000#32) := by
  rw [val_main_v3_apply, val_main_v2_apply, val_main_cst_apply, val_main_cst_0_apply]
  rfl

/-- The second: the same of the two feature arrays, over the word of their 4194304 entries. -/
theorem v61_eq (x2 x3 : (⟨S4x256x64x64, .f32⟩ : BufTy).Contents (Elt Ideal)) (i : S_.Idx) :
    val_main_v61 (F := Ideal) x2 x3 i = CtxSim.mse x2 x3 (Ideal.ofBits .f32 0x4A800000#32) := by
  rw [val_main_v61_apply, val_main_v60_apply, val_main_cst_19_apply, val_main_cst_20_apply]
  rfl

/-- The per-batch mean of the best normalised weights, at batch `b`. -/
theorem v52_ix (x2 x3 : (⟨S4x256x64x64, .f32⟩ : BufTy).Contents (Elt Ideal)) (b : Fin 4) :
    val_main_v52 (F := Ideal) x2 x3 (ix1 b)
      = Ideal.div (CtxSim.zero + ∑ y : Fin 4096, val_main_v49 (F := Ideal) x2 x3 (ix2 b y))
          (Ideal.ofBits .f32 0x45800000#32) := by
  have e : ∀ k : Fin 4096, idx_main_v50 (ix1 b) k = ix2 b k := fun k =>
    funext fun a => Fin.ext (by match a with | ⟨0, _⟩ => rfl | ⟨1, _⟩ => rfl)
  rw [val_main_v52_apply, val_main_v51_apply, val_main_cst_15_apply, val_main_v50_apply, val_main_cst_14_apply]
  exact congrArg (fun s => Ideal.div (CtxSim.zero + s) (Ideal.ofBits .f32 0x45800000#32))
    (Finset.sum_congr rfl fun k _ => congrArg (val_main_v49 (F := Ideal) x2 x3) (e k))

/-- The similarity: the mean over the batches of the per-batch means. -/
theorem v54_eq (x2 x3 : (⟨S4x256x64x64, .f32⟩ : BufTy).Contents (Elt Ideal)) (i : S_.Idx) :
    val_main_v54 (F := Ideal) x2 x3 i = CtxSim.csTwoStep (val_main_v49 (F := Ideal) x2 x3) := by
  rw [val_main_v54_apply, val_main_v53_apply, val_main_cst_16_apply, val_main_cst_17_apply]
  unfold CtxSim.csTwoStep
  exact congrArg (fun s => Ideal.div (CtxSim.zero + s) (Ideal.ofBits .f32 0x40800000#32))
    ((sum_batch _).trans (Finset.sum_congr rfl fun b _ => v52_ix x2 x3 b))

/-- The reference's result is the loss of its four arguments around the two-step similarity of its array of best
    normalised weights. -/
theorem ref_loss (x0 x1 : (⟨S4x3x256x256, .f32⟩ : BufTy).Contents (Elt Ideal))
    (x2 x3 : (⟨S4x256x64x64, .f32⟩ : BufTy).Contents (Elt Ideal)) (i : S_.Idx) :
    val_main_v63 (F := Ideal) x0 x1 x2 x3 i
      = CtxSim.lossOf x0 x1 x2 x3 (CtxSim.csTwoStep (val_main_v49 (F := Ideal) x2 x3)) := by
  rw [val_main_v63_apply, val_main_v57_apply, val_main_v4_apply, val_main_cst_1_apply, v3_eq, val_main_v56_apply,
    val_main_cst_18_apply, val_main_v55_apply, v54_eq, val_main_v62_apply, val_main_cst_21_apply, v61_eq]
  rfl

end Cert.ReferenceIdeal.RefValue

end
-- ==== Proof.MeanLaw.lean ====
/-
  The mean of the 4·4096 entries of a [4, 4096] array of extended reals, taken in two steps (over the 4096
  targets of each batch, then over the 4 batches) or in one step over all 16384 entries, is the same extended real.

  Each divisor is the word of a positive real (4096, 4, 16384), so each quotient is the product with the real
  reciprocal; a nonnegative REAL factor distributes over any finite sum of extended reals, with no finiteness
  hypothesis on the summands (at an infinite summand both sides are that infinity: the factor is real, and
  `⊤ + ⊥ = ⊥` on both sides alike); the sum over the rank-2 index set is the double sum over its coordinates;
  and `1/4 · 1/4096 = 1/16384` in the reals.
-/
import proofs.«157142_j19567871001233_1_alg».proof.Proof.Spec
import Idealize.ShloMosaic.PureOps.Ideal.Laws

noncomputable section

namespace CtxSim

open Idealize.ShloMosaic Idealize.ShloMosaic.ValueIdx

/-- The word `0x45800000` is 4096 (`2^23 · 2^(139 - 127 - 23)`). -/
theorem word_4096 : Ideal.ofBits .f32 0x45800000#32 = ((4096 : ℝ) : EReal) := by
  simp [Ideal.ofBits, Ideal.ieee]
  rw [← EReal.coe_mul, EReal.coe_eq_coe_iff]
  norm_num

/-- The word `0x40800000` is 4 (`2^23 · 2^(129 - 127 - 23)`). -/
theorem word_4 : Ideal.ofBits .f32 0x40800000#32 = ((4 : ℝ) : EReal) := by
  simp [Ideal.ofBits, Ideal.ieee]
  rw [← EReal.coe_mul, EReal.coe_eq_coe_iff]
  norm_num

/-- The word `0x46800000` is 16384 (`2^23 · 2^(141 - 127 - 23)`). -/
theorem word_16384 : Ideal.ofBits .f32 0x46800000#32 = ((16384 : ℝ) : EReal) := by
  simp [Ideal.ofBits, Ideal.ieee]
  rw [← EReal.coe_mul, EReal.coe_eq_coe_iff]
  norm_num

/-- The zero word is `0`. -/
theorem zero_eq : zero = 0 := Ideal.ofBits_zero_f32

/-- A nonnegative real factor distributes over any finite sum of extended reals. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The two-step mean is the one-step mean. -/
theorem csTwoStep_eq_cs (cm : Row) : csTwoStep cm = cs cm := by
  have h : ∀ b : Fin 4, Ideal.div (zero + ∑ y : Fin 4096, cm (ix2 b y)) (Ideal.ofBits .f32 0x45800000#32)
      = ((1 / 4096 : ℝ) : EReal) * ∑ y : Fin 4096, cm (ix2 b y) := fun b => by
    rw [zero_eq, zero_add, word_4096, Ideal.div_coe (by norm_num : (4096 : ℝ) ≠ 0), mul_comm]
  unfold csTwoStep cs
  simp only [h]
  rw [word_4, word_16384, zero_eq, zero_add, zero_add,
    Ideal.div_coe (by norm_num : (4 : ℝ) ≠ 0), Ideal.div_coe (by norm_num : (16384 : ℝ) ≠ 0),
    sum_idx2 (fun i => cm i),
    ← coe_mul_sum Finset.univ (by norm_num : (0 : ℝ) ≤ 1 / 4096) (fun b : Fin 4 => ∑ y : Fin 4096, cm (ix2 b y)),
    mul_comm ((1 / 4096 : ℝ) : EReal) _, mul_assoc, ← EReal.coe_mul]
  norm_num

end CtxSim

end
-- ==== Proof.Claims.lean ====
/-
  The five claims.

  The two kernel frames are the generated frame certificates; the reference's frame is its generated run with the
  result dropped; the ideal pass rewrote nothing, so `preserves` is trivial.

  `algebraic`: at the ideal values the kernel's result buffer ends at the loss of the launch arguments at the ONE-step
  mean, over all 4·4096 entries, of the array of maxima the third sweep leaves, which is `cmaxArr` of the centred
  features and norms the host operations before the sweeps compute; the reference's result is the same loss at the
  TWO-step mean (over the targets, then over the batch) of its own array of maxima, which is `cmaxArr` of the same
  centred features and norms of arguments that agree. Dividing by the positive reals 4096 and then 4, or by 16384 once,
  gives the same extended real for every array, so the two results are equal — with no appeal to finiteness.
-/
import proofs.«157142_j19567871001233_1_alg».proof.Defs
import proofs.«157142_j19567871001233_1_alg».proof.Proof.Gen.Pre_finite_inputs
import proofs.«157142_j19567871001233_1_alg».proof.Proof.Gen.Kernel.Frame
import proofs.«157142_j19567871001233_1_alg».proof.Proof.Gen.KernelIdeal.Frame
import proofs.«157142_j19567871001233_1_alg».proof.Proof.Gen.ReferenceIdeal.Run
import proofs.«157142_j19567871001233_1_alg».proof.Proof.Gen.ReferenceIdeal.Read
import proofs.«157142_j19567871001233_1_alg».proof.Proof.KernelRun
import proofs.«157142_j19567871001233_1_alg».proof.Proof.Compose
import proofs.«157142_j19567871001233_1_alg».proof.Proof.KernelHost
import proofs.«157142_j19567871001233_1_alg».proof.Proof.KernelHostFeat
import proofs.«157142_j19567871001233_1_alg».proof.Proof.RefSweeps
import proofs.«157142_j19567871001233_1_alg».proof.Proof.RefLoss
import proofs.«157142_j19567871001233_1_alg».proof.Proof.MeanLaw

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result, as the loss at the one-step mean of `cmaxArr` of the reference's own centred features and norms
    of the kernel's launch arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W5 m ρ c (Proc.devRef .tc Cert.KernelIdeal.main_v42)
      = fun _ => CtxSim.lossOf (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (CtxSim.cs (CtxSim.cmaxArr
            (Cert.ReferenceIdeal.Read.val_main_v14 (F := Ideal) (m ((c.tc : Thread Cert.KernelIdeal.nD Cert.KernelIdeal.τ).loc Cert.KernelIdeal.main_arg2)))
            (Cert.ReferenceIdeal.Read.val_main_v20 (F := Ideal) (m ((c.tc : Thread Cert.KernelIdeal.nD Cert.KernelIdeal.τ).loc Cert.KernelIdeal.main_arg3)))
            (Cert.ReferenceIdeal.Read.val_main_v21 (F := Ideal) (m ((c.tc : Thread Cert.KernelIdeal.nD Cert.KernelIdeal.τ).loc Cert.KernelIdeal.main_arg2)))
            (Cert.ReferenceIdeal.Read.val_main_v22 (F := Ideal) (m ((c.tc : Thread Cert.KernelIdeal.nD Cert.KernelIdeal.τ).loc Cert.KernelIdeal.main_arg3))))) := by
  rw [Cert.KernelIdeal.HostValue.W5_main_v42]
  have h26 := Cert.KernelIdeal.Compose.V4_v26 m ρ c
  rw [Cert.KernelIdeal.HostValue.V1_main_v22 m ρ c, Cert.KernelIdeal.HostValue.V1_main_v23 m ρ c, Cert.KernelIdeal.HostValue.V1_main_v10 m ρ c, Cert.KernelIdeal.HostValue.V1_main_v21 m ρ c] at h26
  exact congrArg (fun a => fun _ => CtxSim.lossOf _ _ _ _ (CtxSim.cs a)) h26

theorem algebraic : Cert.algebraic_KernelIdeal_ReferenceIdeal := by
  intro m ρ m' ρ' _ hagree
  refine ⟨fun c => Cert.KernelIdeal.Gen.W5 m ρ c (Proc.devRef .tc Cert.KernelIdeal.main_v42),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2.1, (hagree c).2.2.1, (hagree c).2.2.2]
  refine Eq.trans (funext fun i => ?_) (kernel_result m ρ c).symm
  rw [Cert.ReferenceIdeal.RefValue.ref_loss, Cert.ReferenceIdeal.RefValue.ref_cmax, CtxSim.csTwoStep_eq_cs]

end Cert.Proof.Claims

end
-- ==== Proof.lean ====
/-
  A contextual-similarity loss: a three-sweep tiled kernel against the jnp reference, at the extended reals.

  Both programs centre the two feature maps over their 4096 positions, take the row norms, and from them the cosine
  distances d[b,x,y], their minima over the targets, the weights exp ((1 - d / (min + ε₂)) / 1), their sums over the
  targets, and the maximum over the outputs of the normalised weights; the loss is a mean-squared error of the images,
  minus the logarithm of the mean of those maxima, plus 0.02 of a mean-squared error of the features.
  The kernel never forms the 4096 × 4096 matrices: three pallas_calls sweep 512 × 512 tiles over an 8 × 8 grid, each
  carrying a running minimum, sum or maximum in its output block across one grid axis. The proof reads each sweep's
  result array as the whole-matrix quantity (Proof/Sweep0, Sweep1, Sweep2 over Proof/Block and Proof/Payloads),
  chains the three through the contents each region leaves (Proof/Compose), reads the host operations around them
  (Proof/KernelHost*), reads the reference stage by stage (Proof/RefSweeps*, Proof/RefLoss), and joins the two means
  (Proof/MeanLaw). Proof/Spec states the quantities once for both sides; Proof/Claims assembles the five claims.
-/
import proofs.«157142_j19567871001233_1_alg».proof.Defs
import proofs.«157142_j19567871001233_1_alg».proof.Proof.Gen.Kernel
import proofs.«157142_j19567871001233_1_alg».proof.Proof.Gen.KernelIdeal
import proofs.«157142_j19567871001233_1_alg».proof.Proof.Gen.ReferenceIdeal
import proofs.«157142_j19567871001233_1_alg».proof.Proof.Gen.Pre_finite_inputs
import proofs.«157142_j19567871001233_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
